-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x800000 : Shape := ⟨2, ![2, 800000]⟩
abbrev S32x64 : Shape := ⟨2, ![32, 64]⟩
abbrev S64 : Shape := ⟨1, ![64]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x32 .f32) (main_arg1 : IVec S2x800000 32) (main_arg2 : FVec F S32x64 .f32) (main_arg3 : FVec F S64 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x32 : Shape := ⟨2, ![50000, 32]⟩
abbrev S2x800000 : Shape := ⟨2, ![2, 800000]⟩
abbrev S32x64 : Shape := ⟨2, ![32, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x64 : Shape := ⟨2, ![50000, 64]⟩
abbrev S5000x32 : Shape := ⟨2, ![5000, 32]⟩
abbrev S5000x64 : Shape := ⟨2, ![5000, 64]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S800000x1 : Shape := ⟨2, ![800000, 1]⟩
abbrev S800000x64 : Shape := ⟨2, ![800000, 64]⟩

abbrev nBuf : Space → Nat
  | .hbm => 112
  | .vmem => 5
  | .smem => 0
  | _ => 0

abbrev bufTy : (tb : Table) → Fin (tcTables nBuf tb) → BufTy
  | .hbm, ⟨0, _⟩ => ⟨S50000x32, .f32⟩
  | .hbm, ⟨1, _⟩ => ⟨S2x800000, .i32⟩
  | .hbm, ⟨2, _⟩ => ⟨S32x64, .f32⟩
  | .hbm, ⟨3, _⟩ => ⟨S64, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S50000x32, .bf16⟩
  | .hbm, ⟨12, _⟩ => ⟨S32x64, .bf16⟩
  | .hbm, ⟨13, _⟩ => ⟨S50000x64, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x64, .f32⟩
  | .hbm, ⟨63, _⟩ => ⟨S850000x1, .f32⟩
  | .hbm, ⟨64, _⟩ => ⟨S850000x64, .f32⟩
  | .hbm, ⟨65, _⟩ => ⟨S850000x64, .f32⟩
  | .hbm, ⟨66, _⟩ => ⟨S_, .f32⟩
  | .hbm, ⟨67, _⟩ => ⟨S50000x64, .f32⟩
  | .hbm, ⟨68, _⟩ => ⟨S850000x1, .i32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000x64, .f32⟩
  | .hbm, ⟨75, _⟩ => ⟨S50000x64, .f32⟩
  | .hbm, ⟨76, _⟩ => ⟨S1x800000, .i32⟩
  | .hbm, ⟨77, _⟩ => ⟨S800000, .i32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x64, .f32⟩
  | .hbm, ⟨87, _⟩ => ⟨S1x800000, .i32⟩
  | .hbm, ⟨88, _⟩ => ⟨S800000, .i32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x64, .f32⟩
  | .hbm, ⟨98, _⟩ => ⟨S800000x64, .f32⟩
  | .hbm, ⟨99, _⟩ => ⟨S_, .f32⟩
  | .hbm, ⟨100, _⟩ => ⟨S800000, .f32⟩
  | .hbm, ⟨101, _⟩ => ⟨S800000, .f32⟩
  | .hbm, ⟨102, _⟩ => ⟨S800000, .f32⟩
  | .hbm, ⟨103, _⟩ => ⟨S_, .f32⟩
  | .hbm, ⟨104, _⟩ => ⟨S800000, .f32⟩
  | .hbm, ⟨105, _⟩ => ⟨S800000, .f32⟩
  | .hbm, ⟨106, _⟩ => ⟨S_, .f32⟩
  | .hbm, ⟨107, _⟩ => ⟨S800000, .f32⟩
  | .hbm, ⟨108, _⟩ => ⟨S800000, .f32⟩
  | .hbm, ⟨109, _⟩ => ⟨S_, .f32⟩
  | .hbm, ⟨110, _⟩ => ⟨S800000, .f32⟩
  | .hbm, ⟨111, _⟩ => ⟨S800000, .f32⟩
  | .local _ .vmem, ⟨0, _⟩ => ⟨S5000x32, .bf16⟩
  | .local _ .vmem, ⟨1, _⟩ => ⟨S5000x32, .bf16⟩
  | .local _ .vmem, ⟨2, _⟩ => ⟨S32x64, .bf16⟩
  | .local _ .vmem, ⟨3, _⟩ => ⟨S5000x64, .f32⟩
  | .local _ .vmem, ⟨4, _⟩ => ⟨S5000x64, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call2_cst : Ref sig .tc := ⟨.hbm, 73, rfl⟩
abbrev main_call2_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_v76 : Ref sig .tc := ⟨.hbm, 105, rfl⟩
abbrev main_cst_17 : Ref sig .tc := ⟨.hbm, 106, rfl⟩
abbrev main_v77 : Ref sig .tc := ⟨.hbm, 107, rfl⟩
abbrev main_v78 : Ref sig .tc := ⟨.hbm, 108, rfl⟩
abbrev main_cst_18 : Ref sig .tc := ⟨.hbm, 109, rfl⟩
abbrev main_v79 : Ref sig .tc := ⟨.hbm, 110, rfl⟩
abbrev main_v80 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bitsLt_bf16_f32 : FTy.bits .bf16 < FTy.bits .f32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S5000x64_S5000x64_0_0 : ∀ a, (![0, 0] : Fin 2 → Nat) a + S5000x64.size a ≤ S5000x64.size a
  h_S5000x64 : 0 < S5000x64.numel
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  reducesTo_S800000x64_S800000_d1 : S800000x64.ReducesTo [1] S800000
  h_S_ : 0 < S_.numel
  dot_S5000x32_S32x64_S5000x64_1_0_0_1_n_n_wf : DotDims.WF S5000x32 S32x64 S5000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S800000x1_S800000x64_1_0_n_n_0_1_164_wf : GatherDims.WF S50000x64 S800000x1 S800000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .bf16 = 32 ∨ (Rect.block (s := S50000x32) S5000x32.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .bf16 = 32 ∨ (Rect.block (s := S32x64) S32x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)

variable [Facts₀]

def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

abbrev win0_0 : Pipeline.Window sig grid0 :=
  Pipeline.Window.ofSpec (Memref.whole main_v7) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x32 : Shape := ⟨2, ![50000, 32]⟩
abbrev S2x800000 : Shape := ⟨2, ![2, 800000]⟩
abbrev S32x64 : Shape := ⟨2, ![32, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x64 : Shape := ⟨2, ![50000, 64]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S800000x1 : Shape := ⟨2, ![800000, 1]⟩
abbrev S800000x64 : Shape := ⟨2, ![800000, 64]⟩

abbrev nBuf : Space → Nat
  | .hbm => 110
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S2x800000, .i32⟩
  | .hbm, ⟨2, _⟩ => ⟨S32x64, .f32⟩
  | .hbm, ⟨3, _⟩ => ⟨S64, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S50000x64, .f32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x64, .f32⟩
  | .hbm, ⟨61, _⟩ => ⟨S850000x1, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S_, .f32⟩
  | .hbm, ⟨72, _⟩ => ⟨S50000x64, .f32⟩
  | .hbm, ⟨73, _⟩ => ⟨S50000x64, .f32⟩
  | .hbm, ⟨74, _⟩ => ⟨S1x800000, .i32⟩
  | .hbm, ⟨75, _⟩ => ⟨S800000, .i32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x64, .f32⟩
  | .hbm, ⟨85, _⟩ => ⟨S1x800000, .i32⟩
  | .hbm, ⟨86, _⟩ => ⟨S800000, .i32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x64, .f32⟩
  | .hbm, ⟨96, _⟩ => ⟨S800000x64, .f32⟩
  | .hbm, ⟨97, _⟩ => ⟨S_, .f32⟩
  | .hbm, ⟨98, _⟩ => ⟨S800000, .f32⟩
  | .hbm, ⟨99, _⟩ => ⟨S800000, .f32⟩
  | .hbm, ⟨100, _⟩ => ⟨S800000, .f32⟩
  | .hbm, ⟨101, _⟩ => ⟨S_, .f32⟩
  | .hbm, ⟨102, _⟩ => ⟨S800000, .f32⟩
  | .hbm, ⟨103, _⟩ => ⟨S800000, .f32⟩
  | .hbm, ⟨104, _⟩ => ⟨S_, .f32⟩
  | .hbm, ⟨105, _⟩ => ⟨S800000, .f32⟩
  | .hbm, ⟨106, _⟩ => ⟨S800000, .f32⟩
  | .hbm, ⟨107, _⟩ => ⟨S_, .f32⟩
  | .hbm, ⟨108, _⟩ => ⟨S800000, .f32⟩
  | .hbm, ⟨109, _⟩ => ⟨S800000, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call2_cst : Ref sig .tc := ⟨.hbm, 71, rfl⟩
abbrev main_call2_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_16 : Ref sig .tc := ⟨.hbm, 101, rfl⟩
abbrev main_v73 : Ref sig .tc := ⟨.hbm, 102, rfl⟩
abbrev main_v74 : Ref sig .tc := ⟨.hbm, 103, rfl⟩
abbrev main_cst_17 : Ref sig .tc := ⟨.hbm, 104, rfl⟩
abbrev main_v75 : Ref sig .tc := ⟨.hbm, 105, rfl⟩
abbrev main_v76 : Ref sig .tc := ⟨.hbm, 106, rfl⟩
abbrev main_cst_18 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  reducesTo_S800000x64_S800000_d1 : S800000x64.ReducesTo [1] S800000
  h_S_ : 0 < S_.numel
  dot_S50000x32_S32x64_S50000x64_1_0_0_1_n_n_wf : DotDims.WF S50000x32 S32x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S800000x1_S800000x64_1_0_n_n_0_1_164_wf : GatherDims.WF S50000x64 S800000x1 S800000x64 [1] [0] [] [0] [] 1 ![1, 64]

variable [Facts₀]

def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

class Facts : Prop extends Facts₀ where

variable [Facts]
-- ==== Proof.BitsAround.lean ====
/-
  The kernel program as printed: @main around its one region.

  @main is nine host operations (the two edge-list rows with the self-loop indices appended, and the two
  operands of the product rounded to bf16), the region that forms the product `x · W` block of 5000 rows by
  block, and then seven stretches of host operations — the whole graph convolution and the edge decoder — that
  read the product and the arguments and write only buffers of their own.

  Stated here, for any float instance: the buffer contents the region is entered with (`entry`, the fold of the
  nine operations over the launch memory); that @main is those operations, the region, and the chain of the later
  stretches; that the later stretches touch only unscoped TensorCore buffers, allocate nothing, and write neither
  an array the region stages nor an argument; and that the arguments are therefore, after the whole of @main,
  what they were at the launch.
-/
import proofs.«126020_j26104811225843_2_alg».proof.Proof.Gen.Kernel.Launch
import Idealize.ShloMosaic.Lib.Pipeline.FrameSuffix

set_option maxRecDepth 16384

noncomputable section

namespace Cert.Kernel.Around

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable (m : (ℓ : Loc nD τ sig) → Buf (Elt F) ℓ) (ρ : Dev nD → PrngReg)

/-! ## The operations after the region, and the contents the region is entered with -/

/-- The host operations after the region, stretch by stretch: the degree count and its two comparisons; the two
    `where`s around the inverse square root; the gathers, the scaling and the scatter-add of the messages with the
    bias added; the maximum with zero; the two gathers along the edges, their product summed, and the sigmoid. -/
abbrev later : List (List (HloOp τ sig (Elt F))) :=
  [hostOps1, hostOps1_1, hostOps1_2, hostOps1_3, hostOps1_4, hostOps1_5, hostOps1_6]

/-- Core `c`'s buffer contents when the region is entered: the launch memory after the nine operations before it. -/
abbrev entry0 (c : Dev nD) : Valuation τ sig (Elt F) := StableHlo.after (List.flatten [hostOps0]) (fun b => m (c, b))
/-- The same read at a TensorCore reference. -/
abbrev entry (c : Dev nD) (b : Ref sig .tc) : Buf (Elt F) ((c : Thread nD τ).loc b) := entry0 m c (Proc.devRef .tc b)

/-! ## No host operation allocates -/

theorem before_fresh : (hostOps0 : List (HloOp τ sig (Elt F))).Forall fun op => op.fresh = ∅ := by
  simp only [List.Forall]; repeat' constructor
theorem later0_fresh : (hostOps1 : List (HloOp τ sig (Elt F))).Forall fun op => op.fresh = ∅ := by
  simp only [List.Forall]; repeat' constructor
theorem later1_fresh : (hostOps1_1 : List (HloOp τ sig (Elt F))).Forall fun op => op.fresh = ∅ := by
  simp only [List.Forall]; repeat' constructor
theorem later2_fresh : (hostOps1_2 : List (HloOp τ sig (Elt F))).Forall fun op => op.fresh = ∅ := by
  simp only [List.Forall]; repeat' constructor
theorem later3_fresh : (hostOps1_3 : List (HloOp τ sig (Elt F))).Forall fun op => op.fresh = ∅ := by
  simp only [List.Forall]; repeat' constructor
theorem later4_fresh : (hostOps1_4 : List (HloOp τ sig (Elt F))).Forall fun op => op.fresh = ∅ := by
  simp only [List.Forall]; repeat' constructor
theorem later5_fresh : (hostOps1_5 : List (HloOp τ sig (Elt F))).Forall fun op => op.fresh = ∅ := by
  simp only [List.Forall]; repeat' constructor
theorem later6_fresh : (hostOps1_6 : List (HloOp τ sig (Elt F))).Forall fun op => op.fresh = ∅ := by
  simp only [List.Forall]; repeat' constructor

/-! ## @main is the earlier operations, the region, the later operations -/

/-- Holding the unscoped buffers at the launch contents, @main reduces to the region continued by the later
    stretches, holding them at `entry`. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain ((later (F := F)).map StableHlo.seq)) :=
  Pipeline.hmain_around cfgs 0 defs₀ 𝒱₀ m main [hostOps0] later (by simp only [List.Forall]; exact hostOps0_sub)
    (by simp only [List.Forall]; exact before_fresh) main_chain

/-! ## What the later operations touch -/

/-- Each later operation touches only the region's arrays and the buffers that bypass the region. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [later, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- None allocates. -/
theorem later_fresh : ∀ ops ∈ (later : List (List (HloOp τ sig (Elt F)))), ∀ op ∈ ops, op.fresh = ∅ := by
  intro ops hops op hop
  simp only [later, List.mem_cons, List.mem_nil_iff, or_false] at hops
  rcases hops with rfl | rfl | rfl | rfl | rfl | rfl | rfl
  · exact (List.forall_iff_forall_mem.mp later0_fresh) op hop
  · exact (List.forall_iff_forall_mem.mp later1_fresh) op hop
  · exact (List.forall_iff_forall_mem.mp later2_fresh) op hop
  · exact (List.forall_iff_forall_mem.mp later3_fresh) op hop
  · exact (List.forall_iff_forall_mem.mp later4_fresh) op hop
  · exact (List.forall_iff_forall_mem.mp later5_fresh) op hop
  · exact (List.forall_iff_forall_mem.mp later6_fresh) op hop

/-- Every later operation writes one buffer, its own result, and that is none of the seven named below: decided
    operation by operation over the flattened list. -/
local macro "each_writes_its_own" : tactic => `(tactic| (
  simp only [later, hostOps1, hostOps1_1, hostOps1_2, hostOps1_3, hostOps1_4, hostOps1_5, hostOps1_6,
    List.flatten_cons, List.flatten_nil, List.append_nil, List.cons_append, List.nil_append, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)))

theorem later_keeps_lhs : (List.flatten (later (F := F))).Forall fun op => Proc.devRef .tc main_v7 ∉ op.writes := by
  each_writes_its_own
theorem later_keeps_rhs : (List.flatten (later (F := F))).Forall fun op => Proc.devRef .tc main_v8 ∉ op.writes := by
  each_writes_its_own
theorem later_keeps_product : (List.flatten (later (F := F))).Forall fun op => Proc.devRef .tc main_v9 ∉ op.writes := by
  each_writes_its_own
theorem later_keeps_arg0 : (List.flatten (later (F := F))).Forall fun op => Proc.devRef .tc main_arg0 ∉ op.writes := by
  each_writes_its_own
theorem later_keeps_arg1 : (List.flatten (later (F := F))).Forall fun op => Proc.devRef .tc main_arg1 ∉ op.writes := by
  each_writes_its_own
theorem later_keeps_arg2 : (List.flatten (later (F := F))).Forall fun op => Proc.devRef .tc main_arg2 ∉ op.writes := by
  each_writes_its_own
theorem later_keeps_arg3 : (List.flatten (later (F := F))).Forall fun op => Proc.devRef .tc main_arg3 ∉ op.writes := by
  each_writes_its_own

/-- No later operation writes an array the region stages (the two rounded operands and the product). -/
theorem later_keeps : ∀ ops ∈ (later : List (List (HloOp τ sig (Elt F)))), ∀ op ∈ ops,
    ∀ w, Proc.devRef .tc (Pipeline.arrRef spec0 w) ∉ op.writes := by
  intro ops hops op hop w
  have hmem : op ∈ List.flatten (later (F := F)) := List.mem_flatten_of_mem hops hop
  fin_cases w
  · exact (List.forall_iff_forall_mem.mp later_keeps_lhs) op hmem
  · exact (List.forall_iff_forall_mem.mp later_keeps_rhs) op hmem
  · exact (List.forall_iff_forall_mem.mp later_keeps_product) op hmem

/-! ## The arguments: as launched at the region's entry, and as launched at the end -/

/-- The nine operations before the region write the two index lists and the two rounded operands, no argument. -/
local macro "earlier_writes_its_own" : tactic => `(tactic| (
  simp only [hostOps0, List.flatten_cons, List.flatten_nil, List.append_nil, List.cons_append,
    List.nil_append, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem entry_arg0 (c : Dev nD) : entry m c main_arg0 = m ((c : Thread nD τ).loc main_arg0) :=
  StableHlo.after_of_forall_not_mem (b := Proc.devRef .tc main_arg0) _ _ (List.forall_iff_forall_mem.mp (by earlier_writes_its_own))
theorem entry_arg1 (c : Dev nD) : entry m c main_arg1 = m ((c : Thread nD τ).loc main_arg1) :=
  StableHlo.after_of_forall_not_mem (b := Proc.devRef .tc main_arg1) _ _ (List.forall_iff_forall_mem.mp (by earlier_writes_its_own))
theorem entry_arg2 (c : Dev nD) : entry m c main_arg2 = m ((c : Thread nD τ).loc main_arg2) :=
  StableHlo.after_of_forall_not_mem (b := Proc.devRef .tc main_arg2) _ _ (List.forall_iff_forall_mem.mp (by earlier_writes_its_own))
theorem entry_arg3 (c : Dev nD) : entry m c main_arg3 = m ((c : Thread nD τ).loc main_arg3) :=
  StableHlo.after_of_forall_not_mem (b := Proc.devRef .tc main_arg3) _ _ (List.forall_iff_forall_mem.mp (by earlier_writes_its_own))

variable (dats : (p : Fin 1) → (c : Dev nD) → Dat τ (Elt F) Unit ℕ (UR sig nD τ) ℕ (cfgs p) c)

/-- After the later operations an argument holds what it held at the launch: none of them writes it, the region
    stages none of the arguments, and the earlier operations wrote none. -/
theorem end_arg0 (c : Dev nD) :
    Pipeline.afterTail₀ cfgs dats 0 (entry0 m) later c main_arg0 = m ((c : Thread nD τ).loc main_arg0) := by
  unfold Pipeline.afterTail₀
  rw [StableHlo.after_of_forall_not_mem (b := Proc.devRef .tc main_arg0) _ _ (List.forall_iff_forall_mem.mp later_keeps_arg0),
    Pipeline.withArrays_of_ne _ c (entry0 m c) _ main_arg0 (by exact (by decide : ∀ w, Pipeline.arrRef spec0 w ≠ main_arg0))]
  exact entry_arg0 m c
theorem end_arg1 (c : Dev nD) :
    Pipeline.afterTail₀ cfgs dats 0 (entry0 m) later c main_arg1 = m ((c : Thread nD τ).loc main_arg1) := by
  unfold Pipeline.afterTail₀
  rw [StableHlo.after_of_forall_not_mem (b := Proc.devRef .tc main_arg1) _ _ (List.forall_iff_forall_mem.mp later_keeps_arg1),
    Pipeline.withArrays_of_ne _ c (entry0 m c) _ main_arg1 (by exact (by decide : ∀ w, Pipeline.arrRef spec0 w ≠ main_arg1))]
  exact entry_arg1 m c
theorem end_arg2 (c : Dev nD) :
    Pipeline.afterTail₀ cfgs dats 0 (entry0 m) later c main_arg2 = m ((c : Thread nD τ).loc main_arg2) := by
  unfold Pipeline.afterTail₀
  rw [StableHlo.after_of_forall_not_mem (b := Proc.devRef .tc main_arg2) _ _ (List.forall_iff_forall_mem.mp later_keeps_arg2),
    Pipeline.withArrays_of_ne _ c (entry0 m c) _ main_arg2 (by exact (by decide : ∀ w, Pipeline.arrRef spec0 w ≠ main_arg2))]
  exact entry_arg2 m c
theorem end_arg3 (c : Dev nD) :
    Pipeline.afterTail₀ cfgs dats 0 (entry0 m) later c main_arg3 = m ((c : Thread nD τ).loc main_arg3) := by
  unfold Pipeline.afterTail₀
  rw [StableHlo.after_of_forall_not_mem (b := Proc.devRef .tc main_arg3) _ _ (List.forall_iff_forall_mem.mp later_keeps_arg3),
    Pipeline.withArrays_of_ne _ c (entry0 m c) _ main_arg3 (by exact (by decide : ∀ w, Pipeline.arrRef spec0 w ≠ main_arg3))]
  exact entry_arg3 m c

/-- From a run of @main to the library's post (every staged array at what the proof data computes, every other
    unscoped buffer at what the later operations leave): the result buffer holds what the later operations leave
    in it, and the four arguments hold what they held at the launch. -/
theorem result_and_arguments
    (h : θ_run defs (onTc (τ := τ) (main (F := F))) (s₀ m ρ)
      (Pipeline.FramePost cfgs dats 0 (Pipeline.afterTail₀ cfgs dats 0 (entry0 m) later))) :
    θ_run defs (onTc (τ := τ) (main (F := F))) ⟨m, fun _ => 0, ρ⟩ (fun r => ∀ c : Dev nD,
      r.2.mem ((c.tc : Thread nD τ).loc main_v80) = Pipeline.afterTail₀ cfgs dats 0 (entry0 m) later c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v80 (Pipeline.mem_restRefs_of main_v80 (by decide) (by decide)),
     ((h c).2 main_arg0 (Pipeline.mem_restRefs_of main_arg0 (by decide) (by decide))).trans (end_arg0 m dats c),
     ((h c).2 main_arg1 (Pipeline.mem_restRefs_of main_arg1 (by decide) (by decide))).trans (end_arg1 m dats c),
     ((h c).2 main_arg2 (Pipeline.mem_restRefs_of main_arg2 (by decide) (by decide))).trans (end_arg2 m dats c),
     ((h c).2 main_arg3 (Pipeline.mem_restRefs_of main_arg3 (by decide) (by decide))).trans (end_arg3 m dats c)⟩) h

end Cert.Kernel.Around

end
-- ==== Proof.BitsBody.lean ====
/-
  The kernel program as printed: the body of the region, the proof data of its pipeline, and the run of @main.

  The region has a grid of ten points. At point `t` the pipeline hands the body block `t` of the left operand
  (rows `5000 t … 5000 t + 4999` of the 50000 × 32 array, all 32 columns), the whole 32 × 64 right operand (fetched
  at the first point, found in place afterwards: its block index never moves), and a 5000 × 64 buffer for the result.
  The body loads the two, forms their product into a zero accumulator, and stores it over the whole result buffer
  in one covering store; the pipeline writes that buffer back as rows `5000 t …` of the 50000 × 64 product array.

  So after the body the result buffer holds `blockProduct` of the two blocks, whatever it held before (the body
  also loads it, and does not use what it loaded), the two input buffers hold what they held, and nothing else is
  touched. That is the body's triple; with it the library's launch theorem gives the run of @main: it terminates
  on every weakly fair schedule, faults nowhere, leaves every staged array at what the proof data computes and
  every other unscoped buffer at what the later host operations leave.
-/
import proofs.«126020_j26104811225843_2_alg».proof.Proof.BitsAround
import proofs.«126020_j26104811225843_2_alg».proof.Proof.Gen.Kernel.Skeleton
import proofs.«126020_j26104811225843_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Around

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The left operand's current staging buffer holds block `t` at every point (it is fetched at every point), for
    any proof data over the entry contents whose body leaves the block in place. -/
theorem found_lhs {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The right operand's staging buffer holds the whole operand at every point: fetched at the first, and at a later
    point the block index has not moved, so the buffer still holds it. -/
theorem found_rhs {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the result buffer -/

/-- The body's three accesses: each the whole of its buffer. -/
abbrev lhsRect : Rect S5000x32 := Rect.unit (s := S5000x32) ![0, 0] S5000x32.size inb_S5000x32_S5000x32_0_0
abbrev rhsRect : Rect S32x64 := Rect.unit (s := S32x64) ![0, 0] S32x64.size inb_S32x64_S32x64_0_0
abbrev outRect : Rect S5000x64 := Rect.unit (s := S5000x64) ![0, 0] S5000x64.size inb_S5000x64_S5000x64_0_0

/-- The result buffer after the body, from the two input blocks: its one store, of the product of the two loads
    into a zero accumulator. -/
def blockProduct (x0 : Vec F S5000x32 .bf16) (w0 : Vec F S32x64 .bf16) : Vec F S5000x64 .f32 :=
  View.canon [⟨outRect, k0_pay1 (View.ld x0 lhsRect) (View.ld w0 rhsRect)⟩]

/-- The one store covers the buffer: its rectangle is the whole of it. -/
theorem store_covers (p0 : Vec F S5000x64 .f32) (y : S5000x64.Idx) :
    ∃ pc ∈ ([⟨outRect, p0⟩] : List (View.Piece (Elt F) S5000x64 .f32)), y ∈ pc.1.set :=
  View.cover_of_tiled [⟨outRect, p0⟩] S5000x64.size (by rfl) y

/-! ## The body's triple -/

set_option maxHeartbeats 1000000 in
/-- The body on whole staging memrefs — the two inputs' at contents `x0`, `w0`, the result's at anything — runs to the
    continuation holding the inputs' as they were and the result's at `blockProduct x0 w0`. -/
theorem body_triple (c : Dev nD) (E : Set ℕ) (i : grid0.Coords)
    (arg1 : Memref sig .tc .vmem S5000x32 .bf16) (harg1 : arg1.IsWhole) (arg2 : Memref sig .tc .vmem S32x64 .bf16) (harg2 : arg2.IsWhole)
    (arg3 : Memref sig .tc .vmem S5000x64 .f32) (harg3 : arg3.IsWhole)
    (x0 : Vec F S5000x32 .bf16) (w0 : Vec F S32x64 .bf16) (K : PUnit → sProp 𝕄) :
    iprop(owns (c : Thread nD τ) arg1 fullShare x0 ∗ owns (c : Thread nD τ) arg2 fullShare w0 ∗ (∃ d, owns (c : Thread nD τ) arg3 fullShare d)
        ∗ (iprop(owns (c : Thread nD τ) arg1 fullShare x0 ∗ owns (c : Thread nD τ) arg2 fullShare w0 ∗ owns (c : Thread nD τ) arg3 fullShare (blockProduct x0 w0)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- The proof data of the pipeline on core `c`: the arrays as the region finds them; after the body at point `t`
    each input's buffer at its block and the result's at the product of the two blocks; the invariant the scoped
    rest and the generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockProduct (blockAt m c 0 t) (blockAt m c 1 t)
  Φ _ := Pipeline.ΦA spec0 c
  q _ := fullShare
  owed _ := 0

/-- The proof data's arrays are the entry contents (the definition projected, the fold over the earlier host
    operations never opened). -/
theorem arrays_entry (c : Dev nD) (w : Fin cfg0.W) : (dats m 0 c).A w = entry m c (Pipeline.arrRef spec0 w) := by
  dsimp only [dats]

theorem after_lhs (c : Dev nD) (t : Fin cfg0.N) : (dats m 0 c).after 0 t = blockAt m c 0 t := by dsimp only [dats]
theorem after_rhs (c : Dev nD) (t : Fin cfg0.N) : (dats m 0 c).after 1 t = blockAt m c 1 t := by dsimp only [dats]
theorem after_out (c : Dev nD) (t : Fin cfg0.N) :
    (dats m 0 c).after 2 t = blockProduct (blockAt m c 0 t) (blockAt m c 1 t) := by dsimp only [dats]

theorem before_lhs (c : Dev nD) (t : Fin cfg0.N) (d) : (dats m 0 c).before 0 t d = blockAt m c 0 t :=
  found_lhs m (dats m 0 c) (arrays_entry m c 0) (after_lhs m c) t d
theorem before_rhs (c : Dev nD) (t : Fin cfg0.N) (d) : (dats m 0 c).before 1 t d = blockAt m c 1 t :=
  found_rhs m (dats m 0 c) (arrays_entry m c 1) (after_rhs m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the invariant and the
    core's debts pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_lhs, before_rhs]
  rw [show (dats m 0 c).Φ t.succ = (dats m 0 c).Φ t.castSucc from rfl,
    show (dats m 0 c).owesAt () t.succ = (dats m 0 c).owesAt () t.castSucc from rfl,
    after_lhs, after_rhs, after_out]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters, every weakly fair execution of @main on the TensorCore terminates, nothing
    faulting, and every final state has every staged array at what the library computes from the proof data and every
    other unscoped buffer at what the later host operations leave. -/
theorem run_main : θ_run defs (onTc (τ := τ) (main (F := F))) (s₀ m ρ)
    (Pipeline.FramePost cfgs (dats m) 0 (Pipeline.afterTail₀ cfgs (dats m) 0 (entry0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := later) (hsub := later_sub) (hfresh := later_fresh) (hkeep := later_keeps)
    (hmain := main_around m Variants.none) (hA := arrays_entry m) (hΦ := fun _ _ => rfl)

/-- The run with its post read at the result buffer and the arguments: the result holds what the later operations
    leave in it over the product array, and the arguments hold what they held at the launch. -/
theorem run_result : θ_run defs (onTc (τ := τ) (main (F := F))) ⟨m, fun _ => 0, ρ⟩ (fun r => ∀ c : Dev nD,
      r.2.mem ((c.tc : Thread nD τ).loc main_v80) = Pipeline.afterTail₀ cfgs (dats m) 0 (entry0 m) later c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  result_and_arguments m ρ (dats m) (run_main m ρ)

/-- The frame: @main runs to the end, faults nowhere, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.Kernel.Body

end
-- ==== Proof.IdealAround.lean ====
/-
  The idealized kernel program: @main around its one region.

  @main is nine host operations (the two edge-list rows with the self-loop indices appended, and the two
  operands of the product rounded to bf16), the region that forms the product `x · W` block of 5000 rows by
  block, and then seven stretches of host operations — the whole graph convolution and the edge decoder — that
  read the product and the arguments and write only buffers of their own.

  Stated here, for any float instance: the buffer contents the region is entered with (`entry`, the fold of the
  nine operations over the launch memory); that @main is those operations, the region, and the chain of the later
  stretches; that the later stretches touch only unscoped TensorCore buffers, allocate nothing, and write neither
  an array the region stages nor an argument; and that the arguments are therefore, after the whole of @main,
  what they were at the launch.
-/
import proofs.«126020_j26104811225843_2_alg».proof.Proof.Gen.KernelIdeal.Launch
import Idealize.ShloMosaic.Lib.Pipeline.FrameSuffix

set_option maxRecDepth 16384

noncomputable section

namespace Cert.KernelIdeal.Around

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

/-! ## The operations after the region, and the contents the region is entered with -/

/-- The host operations after the region, stretch by stretch: the degree count and its two comparisons; the two
    `where`s around the inverse square root; the gathers, the scaling and the scatter-add of the messages with the
    bias added; the maximum with zero; the two gathers along the edges, their product summed, and the sigmoid. -/
abbrev later : List (List (HloOp τ sig (Elt F))) :=
  [hostOps1, hostOps1_1, hostOps1_2, hostOps1_3, hostOps1_4, hostOps1_5, hostOps1_6]

/-- Core `c`'s buffer contents when the region is entered: the launch memory after the nine operations before it. -/
abbrev entry0 (c : Dev nD) : Valuation τ sig (Elt F) := StableHlo.after (List.flatten [hostOps0]) (fun b => m (c, b))
/-- The same read at a TensorCore reference. -/
abbrev entry (c : Dev nD) (b : Ref sig .tc) : Buf (Elt F) ((c : Thread nD τ).loc b) := entry0 m c (Proc.devRef .tc b)

/-! ## No host operation allocates -/

theorem before_fresh : (hostOps0 : List (HloOp τ sig (Elt F))).Forall fun op => op.fresh = ∅ := by
  simp only [List.Forall]; repeat' constructor
theorem later0_fresh : (hostOps1 : List (HloOp τ sig (Elt F))).Forall fun op => op.fresh = ∅ := by
  simp only [List.Forall]; repeat' constructor
theorem later1_fresh : (hostOps1_1 : List (HloOp τ sig (Elt F))).Forall fun op => op.fresh = ∅ := by
  simp only [List.Forall]; repeat' constructor
theorem later2_fresh : (hostOps1_2 : List (HloOp τ sig (Elt F))).Forall fun op => op.fresh = ∅ := by
  simp only [List.Forall]; repeat' constructor
theorem later3_fresh : (hostOps1_3 : List (HloOp τ sig (Elt F))).Forall fun op => op.fresh = ∅ := by
  simp only [List.Forall]; repeat' constructor
theorem later4_fresh : (hostOps1_4 : List (HloOp τ sig (Elt F))).Forall fun op => op.fresh = ∅ := by
  simp only [List.Forall]; repeat' constructor
theorem later5_fresh : (hostOps1_5 : List (HloOp τ sig (Elt F))).Forall fun op => op.fresh = ∅ := by
  simp only [List.Forall]; repeat' constructor
theorem later6_fresh : (hostOps1_6 : List (HloOp τ sig (Elt F))).Forall fun op => op.fresh = ∅ := by
  simp only [List.Forall]; repeat' constructor

/-! ## @main is the earlier operations, the region, the later operations -/

/-- Holding the unscoped buffers at the launch contents, @main reduces to the region continued by the later
    stretches, holding them at `entry`. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain ((later (F := F)).map StableHlo.seq)) :=
  Pipeline.hmain_around cfgs 0 defs₀ 𝒱₀ m main [hostOps0] later (by simp only [List.Forall]; exact hostOps0_sub)
    (by simp only [List.Forall]; exact before_fresh) main_chain

/-! ## What the later operations touch -/

/-- Each later operation touches only the region's arrays and the buffers that bypass the region. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [later, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- None allocates. -/
theorem later_fresh : ∀ ops ∈ (later : List (List (HloOp τ sig (Elt F)))), ∀ op ∈ ops, op.fresh = ∅ := by
  intro ops hops op hop
  simp only [later, List.mem_cons, List.mem_nil_iff, or_false] at hops
  rcases hops with rfl | rfl | rfl | rfl | rfl | rfl | rfl
  · exact (List.forall_iff_forall_mem.mp later0_fresh) op hop
  · exact (List.forall_iff_forall_mem.mp later1_fresh) op hop
  · exact (List.forall_iff_forall_mem.mp later2_fresh) op hop
  · exact (List.forall_iff_forall_mem.mp later3_fresh) op hop
  · exact (List.forall_iff_forall_mem.mp later4_fresh) op hop
  · exact (List.forall_iff_forall_mem.mp later5_fresh) op hop
  · exact (List.forall_iff_forall_mem.mp later6_fresh) op hop

/-- Every later operation writes one buffer, its own result, and that is none of the seven named below: decided
    operation by operation over the flattened list. -/
local macro "each_writes_its_own" : tactic => `(tactic| (
  simp only [later, hostOps1, hostOps1_1, hostOps1_2, hostOps1_3, hostOps1_4, hostOps1_5, hostOps1_6,
    List.flatten_cons, List.flatten_nil, List.append_nil, List.cons_append, List.nil_append, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)))

theorem later_keeps_lhs : (List.flatten (later (F := F))).Forall fun op => Proc.devRef .tc main_v7 ∉ op.writes := by
  each_writes_its_own
theorem later_keeps_rhs : (List.flatten (later (F := F))).Forall fun op => Proc.devRef .tc main_v8 ∉ op.writes := by
  each_writes_its_own
theorem later_keeps_product : (List.flatten (later (F := F))).Forall fun op => Proc.devRef .tc main_v9 ∉ op.writes := by
  each_writes_its_own
theorem later_keeps_arg0 : (List.flatten (later (F := F))).Forall fun op => Proc.devRef .tc main_arg0 ∉ op.writes := by
  each_writes_its_own
theorem later_keeps_arg1 : (List.flatten (later (F := F))).Forall fun op => Proc.devRef .tc main_arg1 ∉ op.writes := by
  each_writes_its_own
theorem later_keeps_arg2 : (List.flatten (later (F := F))).Forall fun op => Proc.devRef .tc main_arg2 ∉ op.writes := by
  each_writes_its_own
theorem later_keeps_arg3 : (List.flatten (later (F := F))).Forall fun op => Proc.devRef .tc main_arg3 ∉ op.writes := by
  each_writes_its_own

/-- No later operation writes an array the region stages (the two rounded operands and the product). -/
theorem later_keeps : ∀ ops ∈ (later : List (List (HloOp τ sig (Elt F)))), ∀ op ∈ ops,
    ∀ w, Proc.devRef .tc (Pipeline.arrRef spec0 w) ∉ op.writes := by
  intro ops hops op hop w
  have hmem : op ∈ List.flatten (later (F := F)) := List.mem_flatten_of_mem hops hop
  fin_cases w
  · exact (List.forall_iff_forall_mem.mp later_keeps_lhs) op hmem
  · exact (List.forall_iff_forall_mem.mp later_keeps_rhs) op hmem
  · exact (List.forall_iff_forall_mem.mp later_keeps_product) op hmem

/-! ## The arguments: as launched at the region's entry, and as launched at the end -/

/-- The nine operations before the region write the two index lists and the two rounded operands, no argument. -/
local macro "earlier_writes_its_own" : tactic => `(tactic| (
  simp only [hostOps0, List.flatten_cons, List.flatten_nil, List.append_nil, List.cons_append,
    List.nil_append, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem entry_arg0 (c : Dev nD) : entry m c main_arg0 = m ((c : Thread nD τ).loc main_arg0) :=
  StableHlo.after_of_forall_not_mem (b := Proc.devRef .tc main_arg0) _ _ (List.forall_iff_forall_mem.mp (by earlier_writes_its_own))
theorem entry_arg1 (c : Dev nD) : entry m c main_arg1 = m ((c : Thread nD τ).loc main_arg1) :=
  StableHlo.after_of_forall_not_mem (b := Proc.devRef .tc main_arg1) _ _ (List.forall_iff_forall_mem.mp (by earlier_writes_its_own))
theorem entry_arg2 (c : Dev nD) : entry m c main_arg2 = m ((c : Thread nD τ).loc main_arg2) :=
  StableHlo.after_of_forall_not_mem (b := Proc.devRef .tc main_arg2) _ _ (List.forall_iff_forall_mem.mp (by earlier_writes_its_own))
theorem entry_arg3 (c : Dev nD) : entry m c main_arg3 = m ((c : Thread nD τ).loc main_arg3) :=
  StableHlo.after_of_forall_not_mem (b := Proc.devRef .tc main_arg3) _ _ (List.forall_iff_forall_mem.mp (by earlier_writes_its_own))

variable (dats : (p : Fin 1) → (c : Dev nD) → Dat τ (Elt F) Unit ℕ (UR sig nD τ) ℕ (cfgs p) c)

/-- After the later operations an argument holds what it held at the launch: none of them writes it, the region
    stages none of the arguments, and the earlier operations wrote none. -/
theorem end_arg0 (c : Dev nD) :
    Pipeline.afterTail₀ cfgs dats 0 (entry0 m) later c main_arg0 = m ((c : Thread nD τ).loc main_arg0) := by
  unfold Pipeline.afterTail₀
  rw [StableHlo.after_of_forall_not_mem (b := Proc.devRef .tc main_arg0) _ _ (List.forall_iff_forall_mem.mp later_keeps_arg0),
    Pipeline.withArrays_of_ne _ c (entry0 m c) _ main_arg0 (by exact (by decide : ∀ w, Pipeline.arrRef spec0 w ≠ main_arg0))]
  exact entry_arg0 m c
theorem end_arg1 (c : Dev nD) :
    Pipeline.afterTail₀ cfgs dats 0 (entry0 m) later c main_arg1 = m ((c : Thread nD τ).loc main_arg1) := by
  unfold Pipeline.afterTail₀
  rw [StableHlo.after_of_forall_not_mem (b := Proc.devRef .tc main_arg1) _ _ (List.forall_iff_forall_mem.mp later_keeps_arg1),
    Pipeline.withArrays_of_ne _ c (entry0 m c) _ main_arg1 (by exact (by decide : ∀ w, Pipeline.arrRef spec0 w ≠ main_arg1))]
  exact entry_arg1 m c
theorem end_arg2 (c : Dev nD) :
    Pipeline.afterTail₀ cfgs dats 0 (entry0 m) later c main_arg2 = m ((c : Thread nD τ).loc main_arg2) := by
  unfold Pipeline.afterTail₀
  rw [StableHlo.after_of_forall_not_mem (b := Proc.devRef .tc main_arg2) _ _ (List.forall_iff_forall_mem.mp later_keeps_arg2),
    Pipeline.withArrays_of_ne _ c (entry0 m c) _ main_arg2 (by exact (by decide : ∀ w, Pipeline.arrRef spec0 w ≠ main_arg2))]
  exact entry_arg2 m c
theorem end_arg3 (c : Dev nD) :
    Pipeline.afterTail₀ cfgs dats 0 (entry0 m) later c main_arg3 = m ((c : Thread nD τ).loc main_arg3) := by
  unfold Pipeline.afterTail₀
  rw [StableHlo.after_of_forall_not_mem (b := Proc.devRef .tc main_arg3) _ _ (List.forall_iff_forall_mem.mp later_keeps_arg3),
    Pipeline.withArrays_of_ne _ c (entry0 m c) _ main_arg3 (by exact (by decide : ∀ w, Pipeline.arrRef spec0 w ≠ main_arg3))]
  exact entry_arg3 m c

/-- From a run of @main to the library's post (every staged array at what the proof data computes, every other
    unscoped buffer at what the later operations leave): the result buffer holds what the later operations leave
    in it, and the four arguments hold what they held at the launch. -/
theorem result_and_arguments
    (h : θ_run defs (onTc (τ := τ) (main (F := F))) (s₀ m ρ)
      (Pipeline.FramePost cfgs dats 0 (Pipeline.afterTail₀ cfgs dats 0 (entry0 m) later))) :
    θ_run defs (onTc (τ := τ) (main (F := F))) ⟨m, fun _ => 0, ρ⟩ (fun r => ∀ c : Dev nD,
      r.2.mem ((c.tc : Thread nD τ).loc main_v80) = Pipeline.afterTail₀ cfgs dats 0 (entry0 m) later c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v80 (Pipeline.mem_restRefs_of main_v80 (by decide) (by decide)),
     ((h c).2 main_arg0 (Pipeline.mem_restRefs_of main_arg0 (by decide) (by decide))).trans (end_arg0 m dats c),
     ((h c).2 main_arg1 (Pipeline.mem_restRefs_of main_arg1 (by decide) (by decide))).trans (end_arg1 m dats c),
     ((h c).2 main_arg2 (Pipeline.mem_restRefs_of main_arg2 (by decide) (by decide))).trans (end_arg2 m dats c),
     ((h c).2 main_arg3 (Pipeline.mem_restRefs_of main_arg3 (by decide) (by decide))).trans (end_arg3 m dats c)⟩) h

end Cert.KernelIdeal.Around

end
-- ==== Proof.IdealBody.lean ====
/-
  The idealized kernel program: the body of the region, the proof data of its pipeline, and the run of @main.

  The region has a grid of ten points. At point `t` the pipeline hands the body block `t` of the left operand
  (rows `5000 t … 5000 t + 4999` of the 50000 × 32 array, all 32 columns), the whole 32 × 64 right operand (fetched
  at the first point, found in place afterwards: its block index never moves), and a 5000 × 64 buffer for the result.
  The body loads the two, forms their product into a zero accumulator, and stores it over the whole result buffer
  in one covering store; the pipeline writes that buffer back as rows `5000 t …` of the 50000 × 64 product array.

  So after the body the result buffer holds `blockProduct` of the two blocks, whatever it held before (the body
  also loads it, and does not use what it loaded), the two input buffers hold what they held, and nothing else is
  touched. That is the body's triple; with it the library's launch theorem gives the run of @main: it terminates
  on every weakly fair schedule, faults nowhere, leaves every staged array at what the proof data computes and
  every other unscoped buffer at what the later host operations leave.
-/
import proofs.«126020_j26104811225843_2_alg».proof.Proof.IdealAround
import proofs.«126020_j26104811225843_2_alg».proof.Proof.Gen.KernelIdeal.Skeleton
import proofs.«126020_j26104811225843_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Around

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The left operand's current staging buffer holds block `t` at every point (it is fetched at every point), for
    any proof data over the entry contents whose body leaves the block in place. -/
theorem found_lhs {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The right operand's staging buffer holds the whole operand at every point: fetched at the first, and at a later
    point the block index has not moved, so the buffer still holds it. -/
theorem found_rhs {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the result buffer -/

/-- The body's three accesses: each the whole of its buffer. -/
abbrev lhsRect : Rect S5000x32 := Rect.unit (s := S5000x32) ![0, 0] S5000x32.size inb_S5000x32_S5000x32_0_0
abbrev rhsRect : Rect S32x64 := Rect.unit (s := S32x64) ![0, 0] S32x64.size inb_S32x64_S32x64_0_0
abbrev outRect : Rect S5000x64 := Rect.unit (s := S5000x64) ![0, 0] S5000x64.size inb_S5000x64_S5000x64_0_0

/-- The result buffer after the body, from the two input blocks: its one store, of the product of the two loads
    into a zero accumulator. -/
def blockProduct (x0 : Vec F S5000x32 .bf16) (w0 : Vec F S32x64 .bf16) : Vec F S5000x64 .f32 :=
  View.canon [⟨outRect, k0_pay1 (View.ld x0 lhsRect) (View.ld w0 rhsRect)⟩]

/-- The one store covers the buffer: its rectangle is the whole of it. -/
theorem store_covers (p0 : Vec F S5000x64 .f32) (y : S5000x64.Idx) :
    ∃ pc ∈ ([⟨outRect, p0⟩] : List (View.Piece (Elt F) S5000x64 .f32)), y ∈ pc.1.set :=
  View.cover_of_tiled [⟨outRect, p0⟩] S5000x64.size (by rfl) y

/-! ## The body's triple -/

set_option maxHeartbeats 1000000 in
/-- The body on whole staging memrefs — the two inputs' at contents `x0`, `w0`, the result's at anything — runs to the
    continuation holding the inputs' as they were and the result's at `blockProduct x0 w0`. -/
theorem body_triple (c : Dev nD) (E : Set ℕ) (i : grid0.Coords)
    (arg1 : Memref sig .tc .vmem S5000x32 .bf16) (harg1 : arg1.IsWhole) (arg2 : Memref sig .tc .vmem S32x64 .bf16) (harg2 : arg2.IsWhole)
    (arg3 : Memref sig .tc .vmem S5000x64 .f32) (harg3 : arg3.IsWhole)
    (x0 : Vec F S5000x32 .bf16) (w0 : Vec F S32x64 .bf16) (K : PUnit → sProp 𝕄) :
    iprop(owns (c : Thread nD τ) arg1 fullShare x0 ∗ owns (c : Thread nD τ) arg2 fullShare w0 ∗ (∃ d, owns (c : Thread nD τ) arg3 fullShare d)
        ∗ (iprop(owns (c : Thread nD τ) arg1 fullShare x0 ∗ owns (c : Thread nD τ) arg2 fullShare w0 ∗ owns (c : Thread nD τ) arg3 fullShare (blockProduct x0 w0)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- The proof data of the pipeline on core `c`: the arrays as the region finds them; after the body at point `t`
    each input's buffer at its block and the result's at the product of the two blocks; the invariant the scoped
    rest and the generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockProduct (blockAt m c 0 t) (blockAt m c 1 t)
  Φ _ := Pipeline.ΦA spec0 c
  q _ := fullShare
  owed _ := 0

/-- The proof data's arrays are the entry contents (the definition projected, the fold over the earlier host
    operations never opened). -/
theorem arrays_entry (c : Dev nD) (w : Fin cfg0.W) : (dats m 0 c).A w = entry m c (Pipeline.arrRef spec0 w) := by
  dsimp only [dats]

theorem after_lhs (c : Dev nD) (t : Fin cfg0.N) : (dats m 0 c).after 0 t = blockAt m c 0 t := by dsimp only [dats]
theorem after_rhs (c : Dev nD) (t : Fin cfg0.N) : (dats m 0 c).after 1 t = blockAt m c 1 t := by dsimp only [dats]
theorem after_out (c : Dev nD) (t : Fin cfg0.N) :
    (dats m 0 c).after 2 t = blockProduct (blockAt m c 0 t) (blockAt m c 1 t) := by dsimp only [dats]

theorem before_lhs (c : Dev nD) (t : Fin cfg0.N) (d) : (dats m 0 c).before 0 t d = blockAt m c 0 t :=
  found_lhs m (dats m 0 c) (arrays_entry m c 0) (after_lhs m c) t d
theorem before_rhs (c : Dev nD) (t : Fin cfg0.N) (d) : (dats m 0 c).before 1 t d = blockAt m c 1 t :=
  found_rhs m (dats m 0 c) (arrays_entry m c 1) (after_rhs m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the invariant and the
    core's debts pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_lhs, before_rhs]
  rw [show (dats m 0 c).Φ t.succ = (dats m 0 c).Φ t.castSucc from rfl,
    show (dats m 0 c).owesAt () t.succ = (dats m 0 c).owesAt () t.castSucc from rfl,
    after_lhs, after_rhs, after_out]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters, every weakly fair execution of @main on the TensorCore terminates, nothing
    faulting, and every final state has every staged array at what the library computes from the proof data and every
    other unscoped buffer at what the later host operations leave. -/
theorem run_main : θ_run defs (onTc (τ := τ) (main (F := F))) (s₀ m ρ)
    (Pipeline.FramePost cfgs (dats m) 0 (Pipeline.afterTail₀ cfgs (dats m) 0 (entry0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := later) (hsub := later_sub) (hfresh := later_fresh) (hkeep := later_keeps)
    (hmain := main_around m Variants.none) (hA := arrays_entry m) (hΦ := fun _ _ => rfl)

/-- The run with its post read at the result buffer and the arguments: the result holds what the later operations
    leave in it over the product array, and the arguments hold what they held at the launch. -/
theorem run_result : θ_run defs (onTc (τ := τ) (main (F := F))) ⟨m, fun _ => 0, ρ⟩ (fun r => ∀ c : Dev nD,
      r.2.mem ((c.tc : Thread nD τ).loc main_v80) = Pipeline.afterTail₀ cfgs (dats m) 0 (entry0 m) later c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  result_and_arguments m ρ (dats m) (run_main m ρ)

/-- The frame: @main runs to the end, faults nowhere, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.KernelIdeal.Body

end
-- ==== Proof.ProductArray.lean ====
/-
  The idealized kernel: the product array after the region is the matrix product of the two arguments.

  At the ideal instance rounding to bf16 is the identity, so the two arrays the region stages hold the arguments
  `x` (50000 × 32) and `W` (32 × 64) themselves. Grid point `t` writes back, as rows `5000 t … 5000 t + 4999` of the
  50000 × 64 result, the product of rows `5000 t …` of `x` with the whole of `W`: entry `(p, q)` of that block is
  `∑ k < 32, x (5000 t + p, k) · W (k, q)`, which is entry `(5000 t + p, q)` of `x · W`. The ten blocks tile the rows
  (row `r` lies in block `r / 5000`), so the array ends holding `x · W` everywhere.

  The one fact about the body's arithmetic used here — a block's payload read at an entry is that sum over the 32
  contracted positions — is taken as a hypothesis (`BlockSum`), proved where the matrix unit's product is read.
-/
import proofs.«126020_j26104811225843_2_alg».proof.Proof.IdealBody
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.ProductArray

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Around Cert.KernelIdeal.Body

variable (m : (ℓ : Loc nD τ sig) → Buf (Elt Ideal) ℓ)

/-- The matrix product, entry by entry: `(x · W) (r, q) = ∑ k < 32, x (r, k) · W (k, q)`. -/
def productOf (x : FVec Ideal S50000x32 .f32) (w : FVec Ideal S32x64 .f32) : FVec Ideal S50000x64 .f32 :=
  fun i => ∑ k : Fin 32, x (ix2 (i 0 : Fin 50000) k) * w (ix2 k (i 1 : Fin 64))

/-- A block's payload read at an entry is the sum over the 32 contracted positions. -/
def BlockSum : Prop :=
  ∀ (x0 : Vec Ideal S5000x32 .bf16) (w0 : Vec Ideal S32x64 .bf16) (p : Fin 5000) (q : Fin 64),
    k0_pay1 (F := Ideal) x0 w0 (ix2 p q) = ∑ k : Fin 32, x0 (ix2 p k) * w0 (ix2 k q)

theorem zero_offsets : (![0, 0] : Fin 2 → Nat) = fun _ => 0 := funext fun a => by fin_cases a <;> rfl

/-- The printed index maps, decided over the ten grid points: the left operand's and the result's block of rows
    is the point's number, every column block is 0, and the right operand's block never moves. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The staged operands are the arguments -/

/-- The left operand as the region finds it is `x`: rounded to bf16, the identity on the extended reals. -/
theorem entry_lhs (c : Dev nD) (i : S50000x32.Idx) :
    entry m c main_v7 i = m ((c : Thread nD τ).loc main_arg0) i := by
  have e : (entry m c main_v7 : S50000x32.Idx → EReal)
      = (truncf (F := Ideal) .bf16 (m ((c : Thread nD τ).loc main_arg0)) bitsLt_bf16_f32 : FVec Ideal S50000x32 .bf16) := by
    show StableHlo.after hostOps0 (fun b => m (c, b)) (Proc.devRef .tc main_v7) = _
    after_results
  rw [e]; rfl

/-- The right operand as the region finds it is `W`. -/
theorem entry_rhs (c : Dev nD) (i : S32x64.Idx) :
    entry m c main_v8 i = m ((c : Thread nD τ).loc main_arg2) i := by
  have e : (entry m c main_v8 : S32x64.Idx → EReal)
      = (truncf (F := Ideal) .bf16 (m ((c : Thread nD τ).loc main_arg2)) bitsLt_bf16_f32 : FVec Ideal S32x64 .bf16) := by
    show StableHlo.after hostOps0 (fun b => m (c, b)) (Proc.devRef .tc main_v8) = _
    after_results
  rw [e]; rfl

/-! ## One block -/

/-- Over blocks given as plain vectors: if `x0` is rows `5000 T …` of `X` and `w0` is `W`, the payload at `(p, q)` is
    entry `(5000 T + p, q)` of `X · W`. -/
theorem block_entry (hsum : BlockSum) (X : FVec Ideal S50000x32 .f32) (W : FVec Ideal S32x64 .f32)
    (x0 : Vec Ideal S5000x32 .bf16) (w0 : Vec Ideal S32x64 .bf16) (T : Nat) (hT : T < 10)
    (hx : ∀ (p : Fin 5000) (k : Fin 32), x0 (ix2 p k) = X (ix2 (⟨T * 5000 + p.val, by omega⟩ : Fin 50000) k))
    (hw : ∀ (k : Fin 32) (q : Fin 64), w0 (ix2 k q) = W (ix2 k q))
    (p : Fin 5000) (q : Fin 64) :
    k0_pay1 (F := Ideal) x0 w0 (ix2 p q) = productOf X W (ix2 (⟨T * 5000 + p.val, by omega⟩ : Fin 50000) q) := by
  rw [hsum]
  unfold productOf
  exact Finset.sum_congr rfl fun k _ => by rw [hx, hw]

/-- An element of the left operand's block `t` sits at row `5000 t + p` of the array. -/
theorem lhs_position (t : Fin cfg0.N) (ht : t.val < 10) (p : Fin 5000) (k : Fin 32) :
    ((cfg0.win 0).blk t).view.emb (ix2 p k) = ix2 (⟨t.val * 5000 + p.val, by omega⟩ : Fin 50000) k := by
  obtain ⟨e0, e1, -, -, -, -⟩ := block_indices t
  funext a; apply Fin.ext
  match a with
  | ⟨0, _⟩ => show win0_0.index t (0 : Fin 2) * 5000 + 1 * p.val = t.val * 5000 + p.val; rw [e0]; omega
  | ⟨1, _⟩ => show win0_0.index t (1 : Fin 2) * 32 + 1 * k.val = k.val; rw [e1]; omega

/-- The right operand's one block is the whole array. -/
theorem rhs_position (t : Fin cfg0.N) (k : Fin 32) (q : Fin 64) :
    ((cfg0.win 1).blk t).view.emb (ix2 k q) = ix2 k q := by
  obtain ⟨-, -, e2, e3, -, -⟩ := block_indices t
  funext a; apply Fin.ext
  match a with
  | ⟨0, _⟩ => show win0_1.index t (0 : Fin 2) * 32 + 1 * k.val = k.val; rw [e2]; omega
  | ⟨1, _⟩ => show win0_1.index t (1 : Fin 2) * 64 + 1 * q.val = q.val; rw [e3]; omega

/-- An element of the result's block `t` sits at row `5000 t + p` of the product array. -/
theorem out_position (t : Fin cfg0.N) (ht : t.val < 10) (p : Fin 5000) (q : Fin 64) :
    ((cfg0.win 2).blk t).view.emb (ix2 p q) = ix2 (⟨t.val * 5000 + p.val, by omega⟩ : Fin 50000) q := by
  obtain ⟨-, -, -, -, e4, e5⟩ := block_indices t
  funext a; apply Fin.ext
  match a with
  | ⟨0, _⟩ => show win0_2.index t (0 : Fin 2) * 5000 + 1 * p.val = t.val * 5000 + p.val; rw [e4]; omega
  | ⟨1, _⟩ => show win0_2.index t (1 : Fin 2) * 64 + 1 * q.val = q.val; rw [e5]; omega

/-- What point `t` writes back is block `t` of `x · W`. -/
theorem flushed_product (hsum : BlockSum) (c : Dev nD) (t : Fin cfg0.N) :
    (dats m 0 c).flushed 2 t = ((cfg0.win 2).blk t).view.read (Elt Ideal)
      (productOf (m ((c : Thread nD τ).loc main_arg0)) (m ((c : Thread nD τ).loc main_arg2))) := by
  have ht : t.val < 10 := by have h1 := t.isLt; have hN : cfg0.N = 10 := N_0; omega
  show (cfg0.win 2).cut (grid0.coords t) ((dats m 0 c).after 2 t) = _
  rw [after_out]
  unfold blockProduct
  rw [View.canon_unit_zero zero_offsets]
  simp only [View.ld_unit_zero (S := S5000x32) zero_offsets, View.ld_unit_zero (S := S32x64) zero_offsets]
  funext j
  obtain ⟨p, q, rfl⟩ : ∃ (p : Fin 5000) (q : Fin 64), j = ix2 p q := ⟨j 0, j 1, eq_ix2 j⟩
  refine (block_entry hsum (m ((c : Thread nD τ).loc main_arg0)) (m ((c : Thread nD τ).loc main_arg2))
    (blockAt m c 0 t) (blockAt m c 1 t) t.val ht ?_ ?_ p q).trans ?_
  · intro p k
    show entry m c main_v7 (((cfg0.win 0).blk t).view.emb (ix2 p k)) = _
    rw [entry_lhs, lhs_position t ht p k]
  · intro k q
    show entry m c main_v8 (((cfg0.win 1).blk t).view.emb (ix2 k q)) = _
    rw [entry_rhs, rhs_position t k q]
  · show _ = productOf (m ((c : Thread nD τ).loc main_arg0)) (m ((c : Thread nD τ).loc main_arg2))
      (((cfg0.win 2).blk t).view.emb (ix2 p q))
    rw [out_position t ht p q]

/-! ## The blocks tile the rows -/

/-- An index of the product array is in point `t`'s block iff each coordinate is in the block's range on its axis. -/
theorem mem_block (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v9).slice (win0_2.rect t)).set ↔ _
  rw [View.set_slice_whole, Rect.mem_set_unit]
  exact Iff.rfl

/-- Row `r` lies in the block of point `r / 5000`, which is written back. -/
theorem rows_covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_2 _, ?_⟩
  rw [mem_block]
  obtain ⟨-, -, -, -, e4, e5⟩ := block_indices ⟨(i 0).val / 5000, by rw [hN]; omega⟩
  intro a
  match a with
  | ⟨0, _⟩ =>
    show win0_2.index ⟨(i 0).val / 5000, _⟩ (0 : Fin 2) * 5000 ≤ (i 0).val
      ∧ (i 0).val < win0_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, _⟩ (1 : Fin 2) * 64 ≤ (i 1).val
      ∧ (i 1).val < win0_2.index ⟨(i 0).val / 5000, _⟩ (1 : Fin 2) * 64 + 64
    rw [e5]; omega

/-! ## The array -/

/-- After the region the product array holds `x · W`. -/
theorem final_product (hsum : BlockSum) (c : Dev nD) :
    (dats m 0 c).arrAt 2 cfg0.N
      = productOf (m ((c : Thread nD τ).loc main_arg0)) (m ((c : Thread nD τ).loc main_arg2)) :=
  (dats m 0 c).arrAt_eq_of_cover 2 _ (fun t _ => flushed_product m hsum c t) rows_covered

end Cert.KernelIdeal.ProductArray

end
-- ==== Proof.Epilogue.lean ====
/-
  The computation both programs run AFTER the feature matrix has been multiplied by the weight matrix, written once as a
  function `decode` of the product array `xw` (50000 nodes × 64 features), the edge list `ei` (2 × 800000 node numbers)
  and the bias `b` (64 features), and the statement that the reference program's result is `decode` of its own product.

  The mathematics, with n = 50000 nodes and E = 800000 edges (s_e, t_e):
    * every node gets a self-loop: the edge lists become s' = s ++ (0, …, n-1) and t' = t ++ (0, …, n-1), of length E + n;
    * deg(v) = #{e : t'_e = v};   d(v) = deg(v)^(-1/2) where deg(v) > 0 and 0 elsewhere;
    * w_e = d(s'_e) · d(t'_e);    agg(v, ·) = Σ_{e : t'_e = v} w_e · xw(s'_e, ·);
    * h = max(agg + b, 0);        z_e = Σ_f h(s_e, f) · h(t_e, f)   over the E given edges;
    * the result at edge e is 1 / (1 + exp(-z_e)) + 1e-15.
  A node number used as a position is read with a negative number counted from the end (i + n where i < 0).
-/
import proofs.«126020_j26104811225843_2_alg».proof.Proof.RefRun
import Idealize.ShloMosaic.PureOps.Ideal

noncomputable section

namespace Cert.Epilogue

open Cert.ReferenceIdeal Cert.ReferenceIdeal.Gen Idealize.ShloMosaic Idealize.ShloMosaic.TcCoe Idealize.SL.Sem Idealize.ShloMosaic.StableHlo

/-! ## The edge lists -/

/-- Row 0 of the edge list as a flat list of 800000 node numbers: each edge's first end, s_e. -/
def firstEnds (ei : IVec S2x800000 32) : IVec S800000 32 :=
  shapeCast _ (extractStridedSlice S1x800000 ![0, 0] ei slices_S2x800000_S1x800000_0_0) shapeCasts_S1x800000_S800000

/-- Row 1 of the edge list as a flat list of 800000 node numbers: each edge's second end, t_e. -/
def secondEnds (ei : IVec S2x800000 32) : IVec S800000 32 :=
  shapeCast _ (extractStridedSlice S1x800000 ![1, 0] ei slices_S2x800000_S1x800000_1_0) shapeCasts_S1x800000_S800000

/-- The node numbers 0, 1, …, 49999 in order: both ends of the self-loop each node gets. -/
def everyNode : IVec S50000 32 :=
  iotaInDim S50000 32 0

/-- The first ends with the self-loops appended, s' = s ++ (0, …, n-1): 850000 node numbers. -/
def sources (ei : IVec S2x800000 32) : IVec S850000 32 :=
  concatenate S850000 0 [⟨S800000, firstEnds ei⟩, ⟨S50000, everyNode⟩] concatenates_S800000_S50000_S850000_d0

/-- The second ends with the self-loops appended, t' = t ++ (0, …, n-1): 850000 node numbers. -/
def targets (ei : IVec S2x800000 32) : IVec S850000 32 :=
  concatenate S850000 0 [⟨S800000, secondEnds ei⟩, ⟨S50000, everyNode⟩] concatenates_S800000_S50000_S850000_d0

/-- A node number read as a position among the 50000 nodes, a negative number counted from the end:
    i + 50000 where i < 0 (signed), i elsewhere. Over the 850000 edges with self-loops. -/
def wrapLooped (i : IVec S850000 32) : IVec S850000 32 :=
  select (cmpi .slt i (broadcastInDim S850000 ![] bcast_S_S850000 (constantI S_ 32 0#32))) (addi i (broadcastInDim S850000 ![] bcast_S_S850000 (constantI S_ 32 50000#32))) i

/-- The same reading, i + 50000 where i < 0 and i elsewhere, over the 800000 given edges. -/
def wrapGiven (i : IVec S800000 32) : IVec S800000 32 :=
  select (cmpi .slt i (broadcastInDim S800000 ![] bcast_S_S800000 (constantI S_ 32 0#32))) (addi i (broadcastInDim S800000 ![] bcast_S_S800000 (constantI S_ 32 50000#32))) i

/-! ## The symmetric normalization -/

/-- deg(v) = #{e : t'_e = v}: ones, one per edge with self-loops, added into zeros at the edges' second ends. -/
def degree (ei : IVec S2x800000 32) : FVec Ideal S50000 .f32 :=
  Host.scatterAdd (F := Ideal) scatter_S50000_S850000x1_S850000_n_0_0_1 (broadcastInDim S50000 ![] bcast_S_S50000 (constant (F := Ideal) S_ .f32 0x00000000#32)) (broadcastInDim S850000x1 ![0] bcast_S850000_S850000x1_0 (targets ei)) (broadcastInDim S850000 ![] bcast_S_S850000 (constant (F := Ideal) S_ .f32 0x3F800000#32))

/-- d(v) = deg(v)^(-1/2) where deg(v) > 0 and 0 elsewhere; the inverse square root is taken of deg(v) where it is positive
    and of 1 elsewhere, so it is never taken of 0. -/
def invSqrtDegree (ei : IVec S2x800000 32) : FVec Ideal S50000 .f32 :=
  select (cmpf (F := Ideal) .ogt (degree ei) (broadcastInDim S50000 ![] bcast_S_S50000 (constant (F := Ideal) S_ .f32 0x00000000#32))) (Host.rsqrt (F := Ideal) (select (cmpf (F := Ideal) .ogt (degree ei) (broadcastInDim S50000 ![] bcast_S_S50000 (constant (F := Ideal) S_ .f32 0x00000000#32))) (degree ei) (broadcastInDim S50000 ![] bcast_S_S50000 (id (constant (F := Ideal) S_ .f32 0x3F800000#32))))) (broadcastInDim S50000 ![] bcast_S_S50000 (id (constant (F := Ideal) S_ .f32 0x00000000#32)))

/-- w_e = d(s'_e) · d(t'_e): the two factors gathered at the edge's two ends, multiplied. -/
def edgeWeight (ei : IVec S2x800000 32) : FVec Ideal S850000 .f32 :=
  mulf (F := Ideal) (Host.gather gather_S50000_S850000x1_S850000_n_0_n_n_0_1_1 (invSqrtDegree ei) (broadcastInDim S850000x1 ![0] bcast_S850000_S850000x1_0 (wrapLooped (sources ei)))) (Host.gather gather_S50000_S850000x1_S850000_n_0_n_n_0_1_1 (invSqrtDegree ei) (broadcastInDim S850000x1 ![0] bcast_S850000_S850000x1_0 (wrapLooped (targets ei))))

/-! ## One round of aggregation -/

/-- The message along edge e: row s'_e of the product, every feature scaled by w_e. -/
def messages (xw : FVec Ideal S50000x64 .f32) (ei : IVec S2x800000 32) : FVec Ideal S850000x64 .f32 :=
  mulf (F := Ideal) (Host.gather gather_S50000x64_S850000x1_S850000x64_1_0_n_n_0_1_164 xw (broadcastInDim S850000x1 ![0] bcast_S850000_S850000x1_0 (wrapLooped (sources ei)))) (broadcastInDim S850000x64 ![0, 1] bcast_S850000x1_S850000x64_0_1 (broadcastInDim S850000x1 ![0] bcast_S850000_S850000x1_0 (edgeWeight ei)))

/-- agg(v, ·) = Σ_{e : t'_e = v} w_e · xw(s'_e, ·): the messages added into zeros at the edges' second ends. -/
def aggregate (xw : FVec Ideal S50000x64 .f32) (ei : IVec S2x800000 32) : FVec Ideal S50000x64 .f32 :=
  Host.scatterAdd (F := Ideal) scatter_S50000x64_S850000x1_S850000x64_1_0_0_1 (broadcastInDim S50000x64 ![] bcast_S_S50000x64 (constant (F := Ideal) S_ .f32 0x00000000#32)) (broadcastInDim S850000x1 ![0] bcast_S850000_S850000x1_0 (targets ei)) (messages xw ei)

/-- h = max(agg + b, 0): the bias added to every node's row, then the maximum with 0. -/
def activations (xw : FVec Ideal S50000x64 .f32) (ei : IVec S2x800000 32) (b : FVec Ideal S64 .f32) : FVec Ideal S50000x64 .f32 :=
  maximumf (F := Ideal) (addf (F := Ideal) (aggregate xw ei) (broadcastInDim S50000x64 ![0, 1] bcast_S1x64_S50000x64_0_1 (broadcastInDim S1x64 ![1] bcast_S64_S1x64_1 b))) (broadcastInDim S50000x64 ![] bcast_S_S50000x64 (constant (F := Ideal) S_ .f32 0x00000000#32))

/-! ## The inner-product decoder -/

/-- z_e = Σ_f h(s_e, f) · h(t_e, f) over the 800000 given edges: the rows of h gathered at the edge's two ends,
    multiplied feature by feature and summed over the 64 features. -/
def edgeScore (xw : FVec Ideal S50000x64 .f32) (ei : IVec S2x800000 32) (b : FVec Ideal S64 .f32) : FVec Ideal S800000 .f32 :=
  Host.reduceAdd (F := Ideal) (mulf (F := Ideal) (Host.gather gather_S50000x64_S800000x1_S800000x64_1_0_n_n_0_1_164 (activations xw ei b) (broadcastInDim S800000x1 ![0] bcast_S800000_S800000x1_0 (wrapGiven (firstEnds ei)))) (Host.gather gather_S50000x64_S800000x1_S800000x64_1_0_n_n_0_1_164 (activations xw ei b) (broadcastInDim S800000x1 ![0] bcast_S800000_S800000x1_0 (wrapGiven (secondEnds ei))))) (constant (F := Ideal) S_ .f32 0x00000000#32) reducesTo_S800000x64_S800000_d1 h_S_

/-- Everything after the product: 1 / (1 + exp(-z_e)) plus the constant with bits 0x26901D7D (1e-15), at each given edge e. -/
def decode (xw : FVec Ideal S50000x64 .f32) (ei : IVec S2x800000 32) (b : FVec Ideal S64 .f32) : FVec Ideal S800000 .f32 :=
  addf (F := Ideal) (Host.divf (F := Ideal) (broadcastInDim S800000 ![] bcast_S_S800000 (constant (F := Ideal) S_ .f32 0x3F800000#32)) (addf (F := Ideal) (broadcastInDim S800000 ![] bcast_S_S800000 (constant (F := Ideal) S_ .f32 0x3F800000#32)) (Host.exp (F := Ideal) (Host.negf (F := Ideal) (edgeScore xw ei b))))) (broadcastInDim S800000 ![] bcast_S_S800000 (constant (F := Ideal) S_ .f32 0x26901D7D#32))

/-! ## The reference program's result -/

/-- The reference program's result is `decode` of the matrix product it computes: its composed term is, operation for
    operation, the stages above applied to its product, its edge list and its bias. -/
theorem reference_is_decode (m : (ℓ : Loc nD τ sig) → Buf (Elt Ideal) ℓ) (c : Dev nD) :
    Cert.ReferenceIdeal.RunP.res_main_v78 (F := Ideal) m c
      = decode (Host.dotGeneral (F := Ideal) (φ₁ := .f32) (φ₂ := .f32) dot_S50000x32_S32x64_S50000x64_1_0_0_1_n_n none (m ((c.tc : Thread nD τ).loc main_arg0)) (m ((c.tc : Thread nD τ).loc main_arg2)))
          (m ((c.tc : Thread nD τ).loc main_arg1)) (m ((c.tc : Thread nD τ).loc main_arg3)) := by
  unfold RunP.res_main_v78 decode edgeScore activations aggregate messages edgeWeight invSqrtDegree degree wrapGiven wrapLooped targets sources everyNode secondEnds firstEnds
  rfl

end Cert.Epilogue

end
-- ==== Proof.KernelTail.lean ====
/-
  The idealized kernel: its result is the shared epilogue of the product array.

  After the region @main runs 98 host operations: the degree count of the edge list with self-loops, the inverse
  square roots, the edge weights, the messages `xw[s'_e] · w_e` added up at the edges' targets, the bias and the
  maximum with zero, the two gathers along the given edges with their product summed over the features, and the
  sigmoid. They read five buffers written before them — the product array, the two index lists with the self-loops
  appended, the edge list and the bias — and each writes a buffer of its own.

  The stages below are those operations written over the kernel program's own shapes and dimension records, in
  the order @main runs them; folded over any contents of the five buffers, the last operation leaves in the result
  buffer exactly `decode` of them. Stage by stage they are the stages of `Cert.Epilogue` (the same operations over
  the reference program's shapes and records, which are the same shapes and records), so the kernel's result is
  `Cert.Epilogue.decode (x · W) ei b`.
-/
import proofs.«126020_j26104811225843_2_alg».proof.Proof.ProductArray
import proofs.«126020_j26104811225843_2_alg».proof.Proof.Epilogue
import Idealize.ShloMosaic.Lib.StableHlo.Run
import Idealize.ShloMosaic.PureOps.Ideal

set_option maxRecDepth 16384

noncomputable section

namespace Cert.KernelIdeal.Tail

open Idealize.ShloMosaic Idealize.ShloMosaic.TcCoe Idealize.SL Idealize.SL.Sem Idealize.ShloMosaic.StableHlo
open Cert.KernelIdeal Cert.KernelIdeal.Gen Cert.KernelIdeal.Around Cert.KernelIdeal.Body Cert.KernelIdeal.ProductArray

/-! ## The edge lists -/

/-- Row 0 of the edge list as a flat list of 800000 node numbers: each edge's first end, s_e. -/
def firstEnds (ei : IVec S2x800000 32) : IVec S800000 32 :=
  shapeCast _ (extractStridedSlice S1x800000 ![0, 0] ei slices_S2x800000_S1x800000_0_0) shapeCasts_S1x800000_S800000

/-- Row 1 of the edge list as a flat list of 800000 node numbers: each edge's second end, t_e. -/
def secondEnds (ei : IVec S2x800000 32) : IVec S800000 32 :=
  shapeCast _ (extractStridedSlice S1x800000 ![1, 0] ei slices_S2x800000_S1x800000_1_0) shapeCasts_S1x800000_S800000

/-- The node numbers 0, 1, …, 49999 in order: both ends of the self-loop each node gets. -/
def everyNode : IVec S50000 32 :=
  iotaInDim S50000 32 0

/-- The first ends with the self-loops appended, s' = s ++ (0, …, n-1): 850000 node numbers. -/
def sources (ei : IVec S2x800000 32) : IVec S850000 32 :=
  concatenate S850000 0 [⟨S800000, firstEnds ei⟩, ⟨S50000, everyNode⟩] concatenates_S800000_S50000_S850000_d0

/-- The second ends with the self-loops appended, t' = t ++ (0, …, n-1): 850000 node numbers. -/
def targets (ei : IVec S2x800000 32) : IVec S850000 32 :=
  concatenate S850000 0 [⟨S800000, secondEnds ei⟩, ⟨S50000, everyNode⟩] concatenates_S800000_S50000_S850000_d0

/-- A node number read as a position among the 50000 nodes, a negative number counted from the end:
    i + 50000 where i < 0 (signed), i elsewhere. Over the 850000 edges with self-loops. -/
def wrapLooped (i : IVec S850000 32) : IVec S850000 32 :=
  select (cmpi .slt i (broadcastInDim S850000 ![] bcast_S_S850000 (constantI S_ 32 0#32))) (addi i (broadcastInDim S850000 ![] bcast_S_S850000 (constantI S_ 32 50000#32))) i

/-- The same reading, i + 50000 where i < 0 and i elsewhere, over the 800000 given edges. -/
def wrapGiven (i : IVec S800000 32) : IVec S800000 32 :=
  select (cmpi .slt i (broadcastInDim S800000 ![] bcast_S_S800000 (constantI S_ 32 0#32))) (addi i (broadcastInDim S800000 ![] bcast_S_S800000 (constantI S_ 32 50000#32))) i

/-! ## The symmetric normalization -/

/-- deg(v) = #{e : t'_e = v}: ones, one per edge with self-loops, added into zeros at the edges' second ends. -/
def degree (ei : IVec S2x800000 32) : FVec Ideal S50000 .f32 :=
  Host.scatterAdd (F := Ideal) scatter_S50000_S850000x1_S850000_n_0_0_1 (broadcastInDim S50000 ![] bcast_S_S50000 (constant (F := Ideal) S_ .f32 0x00000000#32)) (broadcastInDim S850000x1 ![0] bcast_S850000_S850000x1_0 (targets ei)) (broadcastInDim S850000 ![] bcast_S_S850000 (constant (F := Ideal) S_ .f32 0x3F800000#32))

/-- d(v) = deg(v)^(-1/2) where deg(v) > 0 and 0 elsewhere; the inverse square root is taken of deg(v) where it is positive
    and of 1 elsewhere, so it is never taken of 0. -/
def invSqrtDegree (ei : IVec S2x800000 32) : FVec Ideal S50000 .f32 :=
  select (cmpf (F := Ideal) .ogt (degree ei) (broadcastInDim S50000 ![] bcast_S_S50000 (constant (F := Ideal) S_ .f32 0x00000000#32))) (Host.rsqrt (F := Ideal) (select (cmpf (F := Ideal) .ogt (degree ei) (broadcastInDim S50000 ![] bcast_S_S50000 (constant (F := Ideal) S_ .f32 0x00000000#32))) (degree ei) (broadcastInDim S50000 ![] bcast_S_S50000 (id (constant (F := Ideal) S_ .f32 0x3F800000#32))))) (broadcastInDim S50000 ![] bcast_S_S50000 (id (constant (F := Ideal) S_ .f32 0x00000000#32)))

/-- w_e = d(s'_e) · d(t'_e): the two factors gathered at the edge's two ends, multiplied. -/
def edgeWeight (ei : IVec S2x800000 32) : FVec Ideal S850000 .f32 :=
  mulf (F := Ideal) (Host.gather gather_S50000_S850000x1_S850000_n_0_n_n_0_1_1 (invSqrtDegree ei) (broadcastInDim S850000x1 ![0] bcast_S850000_S850000x1_0 (wrapLooped (sources ei)))) (Host.gather gather_S50000_S850000x1_S850000_n_0_n_n_0_1_1 (invSqrtDegree ei) (broadcastInDim S850000x1 ![0] bcast_S850000_S850000x1_0 (wrapLooped (targets ei))))

/-! ## One round of aggregation -/

/-- The message along edge e: row s'_e of the product, every feature scaled by w_e. -/
def messages (xw : FVec Ideal S50000x64 .f32) (ei : IVec S2x800000 32) : FVec Ideal S850000x64 .f32 :=
  mulf (F := Ideal) (Host.gather gather_S50000x64_S850000x1_S850000x64_1_0_n_n_0_1_164 xw (broadcastInDim S850000x1 ![0] bcast_S850000_S850000x1_0 (wrapLooped (sources ei)))) (broadcastInDim S850000x64 ![0, 1] bcast_S850000x1_S850000x64_0_1 (broadcastInDim S850000x1 ![0] bcast_S850000_S850000x1_0 (edgeWeight ei)))

/-- agg(v, ·) = Σ_{e : t'_e = v} w_e · xw(s'_e, ·): the messages added into zeros at the edges' second ends. -/
def aggregate (xw : FVec Ideal S50000x64 .f32) (ei : IVec S2x800000 32) : FVec Ideal S50000x64 .f32 :=
  Host.scatterAdd (F := Ideal) scatter_S50000x64_S850000x1_S850000x64_1_0_0_1 (broadcastInDim S50000x64 ![] bcast_S_S50000x64 (constant (F := Ideal) S_ .f32 0x00000000#32)) (broadcastInDim S850000x1 ![0] bcast_S850000_S850000x1_0 (targets ei)) (messages xw ei)

/-- h = max(agg + b, 0): the bias added to every node's row, then the maximum with 0. -/
def activations (xw : FVec Ideal S50000x64 .f32) (ei : IVec S2x800000 32) (b : FVec Ideal S64 .f32) : FVec Ideal S50000x64 .f32 :=
  maximumf (F := Ideal) (addf (F := Ideal) (aggregate xw ei) (broadcastInDim S50000x64 ![0, 1] bcast_S1x64_S50000x64_0_1 (broadcastInDim S1x64 ![1] bcast_S64_S1x64_1 b))) (broadcastInDim S50000x64 ![] bcast_S_S50000x64 (constant (F := Ideal) S_ .f32 0x00000000#32))

/-! ## The inner-product decoder -/

/-- z_e = Σ_f h(s_e, f) · h(t_e, f) over the 800000 given edges: the rows of h gathered at the edge's two ends,
    multiplied feature by feature and summed over the 64 features. -/
def edgeScore (xw : FVec Ideal S50000x64 .f32) (ei : IVec S2x800000 32) (b : FVec Ideal S64 .f32) : FVec Ideal S800000 .f32 :=
  Host.reduceAdd (F := Ideal) (mulf (F := Ideal) (Host.gather gather_S50000x64_S800000x1_S800000x64_1_0_n_n_0_1_164 (activations xw ei b) (broadcastInDim S800000x1 ![0] bcast_S800000_S800000x1_0 (wrapGiven (firstEnds ei)))) (Host.gather gather_S50000x64_S800000x1_S800000x64_1_0_n_n_0_1_164 (activations xw ei b) (broadcastInDim S800000x1 ![0] bcast_S800000_S800000x1_0 (wrapGiven (secondEnds ei))))) (constant (F := Ideal) S_ .f32 0x00000000#32) reducesTo_S800000x64_S800000_d1 h_S_

/-- Everything after the product: 1 / (1 + exp(-z_e)) plus the constant with bits 0x26901D7D (1e-15), at each given edge e. -/
def decode (xw : FVec Ideal S50000x64 .f32) (ei : IVec S2x800000 32) (b : FVec Ideal S64 .f32) : FVec Ideal S800000 .f32 :=
  addf (F := Ideal) (Host.divf (F := Ideal) (broadcastInDim S800000 ![] bcast_S_S800000 (constant (F := Ideal) S_ .f32 0x3F800000#32)) (addf (F := Ideal) (broadcastInDim S800000 ![] bcast_S_S800000 (constant (F := Ideal) S_ .f32 0x3F800000#32)) (Host.exp (F := Ideal) (Host.negf (F := Ideal) (edgeScore xw ei b))))) (broadcastInDim S800000 ![] bcast_S_S800000 (constant (F := Ideal) S_ .f32 0x26901D7D#32))

/-! ## Stage by stage, the two programs' spellings are one function -/

theorem firstEnds_eq (ei : IVec S2x800000 32) : firstEnds ei = Cert.Epilogue.firstEnds ei := by
  unfold firstEnds Cert.Epilogue.firstEnds
  rfl

theorem secondEnds_eq (ei : IVec S2x800000 32) : secondEnds ei = Cert.Epilogue.secondEnds ei := by
  unfold secondEnds Cert.Epilogue.secondEnds
  rfl

theorem everyNode_eq  : everyNode  = Cert.Epilogue.everyNode  := by
  unfold everyNode Cert.Epilogue.everyNode
  rfl

theorem sources_eq (ei : IVec S2x800000 32) : sources ei = Cert.Epilogue.sources ei := by
  unfold sources Cert.Epilogue.sources firstEnds Cert.Epilogue.firstEnds everyNode Cert.Epilogue.everyNode
  rfl

theorem targets_eq (ei : IVec S2x800000 32) : targets ei = Cert.Epilogue.targets ei := by
  unfold targets Cert.Epilogue.targets secondEnds Cert.Epilogue.secondEnds everyNode Cert.Epilogue.everyNode
  rfl

theorem wrapLooped_eq (i : IVec S850000 32) : wrapLooped i = Cert.Epilogue.wrapLooped i := by
  unfold wrapLooped Cert.Epilogue.wrapLooped
  rfl

theorem wrapGiven_eq (i : IVec S800000 32) : wrapGiven i = Cert.Epilogue.wrapGiven i := by
  unfold wrapGiven Cert.Epilogue.wrapGiven
  rfl

theorem degree_eq (ei : IVec S2x800000 32) : degree ei = Cert.Epilogue.degree ei := by
  unfold degree Cert.Epilogue.degree
  simp only [targets_eq]
  try rfl

theorem invSqrtDegree_eq (ei : IVec S2x800000 32) : invSqrtDegree ei = Cert.Epilogue.invSqrtDegree ei := by
  unfold invSqrtDegree Cert.Epilogue.invSqrtDegree
  simp only [degree_eq]
  try rfl

theorem edgeWeight_eq (ei : IVec S2x800000 32) : edgeWeight ei = Cert.Epilogue.edgeWeight ei := by
  unfold edgeWeight Cert.Epilogue.edgeWeight
  simp only [invSqrtDegree_eq, wrapLooped_eq, sources_eq, targets_eq]
  try rfl

theorem messages_eq (xw : FVec Ideal S50000x64 .f32) (ei : IVec S2x800000 32) : messages xw ei = Cert.Epilogue.messages xw ei := by
  unfold messages Cert.Epilogue.messages
  simp only [wrapLooped_eq, sources_eq, edgeWeight_eq]
  try rfl

theorem aggregate_eq (xw : FVec Ideal S50000x64 .f32) (ei : IVec S2x800000 32) : aggregate xw ei = Cert.Epilogue.aggregate xw ei := by
  unfold aggregate Cert.Epilogue.aggregate
  simp only [targets_eq, messages_eq]
  try rfl

theorem activations_eq (xw : FVec Ideal S50000x64 .f32) (ei : IVec S2x800000 32) (b : FVec Ideal S64 .f32) : activations xw ei b = Cert.Epilogue.activations xw ei b := by
  unfold activations Cert.Epilogue.activations
  simp only [aggregate_eq]
  try rfl

theorem edgeScore_eq (xw : FVec Ideal S50000x64 .f32) (ei : IVec S2x800000 32) (b : FVec Ideal S64 .f32) : edgeScore xw ei b = Cert.Epilogue.edgeScore xw ei b := by
  unfold edgeScore Cert.Epilogue.edgeScore
  simp only [activations_eq, wrapGiven_eq, firstEnds_eq, secondEnds_eq]
  try rfl

theorem decode_eq (xw : FVec Ideal S50000x64 .f32) (ei : IVec S2x800000 32) (b : FVec Ideal S64 .f32) : decode xw ei b = Cert.Epilogue.decode xw ei b := by
  unfold decode Cert.Epilogue.decode
  simp only [edgeScore_eq]
  try rfl

/-! ## The stages as functions of their inputs -/

/-- deg(v) from the list of target ends: ones added into zeros at the targets. -/
def degreeOf (dst : IVec S850000 32) : FVec Ideal S50000 .f32 :=
  Host.scatterAdd (F := Ideal) scatter_S50000_S850000x1_S850000_n_0_0_1 (broadcastInDim S50000 ![] bcast_S_S50000 (constant (F := Ideal) S_ .f32 0x00000000#32)) (broadcastInDim S850000x1 ![0] bcast_S850000_S850000x1_0 dst) (broadcastInDim S850000 ![] bcast_S_S850000 (constant (F := Ideal) S_ .f32 0x3F800000#32))

/-- Where a per-node quantity is positive. -/
def positiveOf (deg : FVec Ideal S50000 .f32) : IVec S50000 1 :=
  cmpf (F := Ideal) .ogt deg (broadcastInDim S50000 ![] bcast_S_S50000 (constant (F := Ideal) S_ .f32 0x00000000#32))

/-- `v` where the condition holds and the given scalar elsewhere. -/
def whereOf (cnd : IVec S50000 1) (v : FVec Ideal S50000 .f32) (other : FVec Ideal S_ .f32) : FVec Ideal S50000 .f32 :=
  select cnd v (broadcastInDim S50000 ![] bcast_S_S50000 (id other))

/-- agg + b from the product, the two index lists and the per-node factor d: the rows `xw[s'_e]` scaled by
    `d(s'_e) · d(t'_e)`, added into zeros at the targets, the bias added to every row. -/
def hiddenOf (xw : FVec Ideal S50000x64 .f32) (src dst : IVec S850000 32) (dinv : FVec Ideal S50000 .f32) (b : FVec Ideal S64 .f32) : FVec Ideal S50000x64 .f32 :=
  addf (F := Ideal)
    (Host.scatterAdd (F := Ideal) scatter_S50000x64_S850000x1_S850000x64_1_0_0_1 (broadcastInDim S50000x64 ![] bcast_S_S50000x64 (constant (F := Ideal) S_ .f32 0x00000000#32)) (broadcastInDim S850000x1 ![0] bcast_S850000_S850000x1_0 dst)
      (mulf (F := Ideal) (Host.gather gather_S50000x64_S850000x1_S850000x64_1_0_n_n_0_1_164 xw (broadcastInDim S850000x1 ![0] bcast_S850000_S850000x1_0 (wrapLooped src)))
        (broadcastInDim S850000x64 ![0, 1] bcast_S850000x1_S850000x64_0_1 (broadcastInDim S850000x1 ![0] bcast_S850000_S850000x1_0
          (mulf (F := Ideal) (Host.gather gather_S50000_S850000x1_S850000_n_0_n_n_0_1_1 dinv (broadcastInDim S850000x1 ![0] bcast_S850000_S850000x1_0 (wrapLooped src))) (Host.gather gather_S50000_S850000x1_S850000_n_0_n_n_0_1_1 dinv (broadcastInDim S850000x1 ![0] bcast_S850000_S850000x1_0 (wrapLooped dst))))))))
    (broadcastInDim S50000x64 ![0, 1] bcast_S1x64_S50000x64_0_1 (broadcastInDim S1x64 ![1] bcast_S64_S1x64_1 b))

/-- The maximum with 0. -/
def reluOf (v : FVec Ideal S50000x64 .f32) : FVec Ideal S50000x64 .f32 :=
  maximumf (F := Ideal) v (broadcastInDim S50000x64 ![] bcast_S_S50000x64 (constant (F := Ideal) S_ .f32 0x00000000#32))

/-- The decoder from the activations: the sigmoid of the inner product of the two ends' rows, plus the constant. -/
def scoreOf (h : FVec Ideal S50000x64 .f32) (ei : IVec S2x800000 32) : FVec Ideal S800000 .f32 :=
  addf (F := Ideal) (Host.divf (F := Ideal) (broadcastInDim S800000 ![] bcast_S_S800000 (constant (F := Ideal) S_ .f32 0x3F800000#32)) (addf (F := Ideal) (broadcastInDim S800000 ![] bcast_S_S800000 (constant (F := Ideal) S_ .f32 0x3F800000#32)) (Host.exp (F := Ideal) (Host.negf (F := Ideal)
    (Host.reduceAdd (F := Ideal) (mulf (F := Ideal) (Host.gather gather_S50000x64_S800000x1_S800000x64_1_0_n_n_0_1_164 h (broadcastInDim S800000x1 ![0] bcast_S800000_S800000x1_0 (wrapGiven (firstEnds ei)))) (Host.gather gather_S50000x64_S800000x1_S800000x64_1_0_n_n_0_1_164 h (broadcastInDim S800000x1 ![0] bcast_S800000_S800000x1_0 (wrapGiven (secondEnds ei))))) (constant (F := Ideal) S_ .f32 0x00000000#32) reducesTo_S800000x64_S800000_d1 h_S_))))) (broadcastInDim S800000 ![] bcast_S_S800000 (constant (F := Ideal) S_ .f32 0x26901D7D#32))

/-- Composed in the order @main runs them, the stages are `decode`. -/
theorem decode_by_stages (xw : FVec Ideal S50000x64 .f32) (ei : IVec S2x800000 32) (b : FVec Ideal S64 .f32) :
    scoreOf (reluOf (hiddenOf xw (sources ei) (targets ei)
      (whereOf (positiveOf (degreeOf (targets ei)))
        (Host.rsqrt (F := Ideal) (whereOf (positiveOf (degreeOf (targets ei))) (degreeOf (targets ei)) (constant (F := Ideal) S_ .f32 0x3F800000#32)))
        (constant (F := Ideal) S_ .f32 0x00000000#32)) b)) ei = decode xw ei b := by
  unfold scoreOf reluOf hiddenOf whereOf positiveOf degreeOf decode edgeScore activations aggregate messages edgeWeight invSqrtDegree degree
  rfl

/-! ## The later operations, stretch by stretch, over any buffer contents -/

section Stretches

variable (W : Valuation τ sig (Elt Ideal))

/-- The degree count and its two comparisons. -/
theorem stretch_degree (dst : IVec S850000 32) (h6 : W (Proc.devRef .tc main_v6) = dst) :
    StableHlo.after (hostOps1 (F := Ideal)) W (Proc.devRef .tc main_v13) = degreeOf dst
    ∧ StableHlo.after (hostOps1 (F := Ideal)) W (Proc.devRef .tc main_v15) = positiveOf (degreeOf dst)
    ∧ StableHlo.after (hostOps1 (F := Ideal)) W (Proc.devRef .tc main_v17) = positiveOf (degreeOf dst)
    ∧ StableHlo.after (hostOps1 (F := Ideal)) W (Proc.devRef .tc main_cst_3) = (constant (F := Ideal) S_ .f32 0x3F800000#32)
    ∧ StableHlo.after (hostOps1 (F := Ideal)) W (Proc.devRef .tc main_v3) = W (Proc.devRef .tc main_v3)
    ∧ StableHlo.after (hostOps1 (F := Ideal)) W (Proc.devRef .tc main_v6) = W (Proc.devRef .tc main_v6)
    ∧ StableHlo.after (hostOps1 (F := Ideal)) W (Proc.devRef .tc main_v9) = W (Proc.devRef .tc main_v9)
    ∧ StableHlo.after (hostOps1 (F := Ideal)) W (Proc.devRef .tc main_arg1) = W (Proc.devRef .tc main_arg1)
    ∧ StableHlo.after (hostOps1 (F := Ideal)) W (Proc.devRef .tc main_arg3) = W (Proc.devRef .tc main_arg3) := by
  refine ⟨?_, ?_, ?_, ?_, ?_, ?_, ?_, ?_, ?_⟩
  all_goals (simp only [hostOps1]; after_results_simp)
  all_goals (simp only [h6]; (try unfold positiveOf); (try unfold degreeOf); try rfl)

/-- The first `where`: the degree where it is positive, 1 elsewhere. -/
theorem stretch_where1 (cnd : IVec S50000 1) (d : FVec Ideal S50000 .f32) (one : FVec Ideal S_ .f32)
    (h17 : W (Proc.devRef .tc main_v17) = cnd) (h13 : W (Proc.devRef .tc main_v13) = d) (h3 : W (Proc.devRef .tc main_cst_3) = one) :
    StableHlo.after (hostOps1_1 (F := Ideal)) W (Proc.devRef .tc main_v18) = whereOf cnd d one
    ∧ StableHlo.after (hostOps1_1 (F := Ideal)) W (Proc.devRef .tc main_v15) = W (Proc.devRef .tc main_v15)
    ∧ StableHlo.after (hostOps1_1 (F := Ideal)) W (Proc.devRef .tc main_v3) = W (Proc.devRef .tc main_v3)
    ∧ StableHlo.after (hostOps1_1 (F := Ideal)) W (Proc.devRef .tc main_v6) = W (Proc.devRef .tc main_v6)
    ∧ StableHlo.after (hostOps1_1 (F := Ideal)) W (Proc.devRef .tc main_v9) = W (Proc.devRef .tc main_v9)
    ∧ StableHlo.after (hostOps1_1 (F := Ideal)) W (Proc.devRef .tc main_arg1) = W (Proc.devRef .tc main_arg1)
    ∧ StableHlo.after (hostOps1_1 (F := Ideal)) W (Proc.devRef .tc main_arg3) = W (Proc.devRef .tc main_arg3) := by
  refine ⟨?_, ?_, ?_, ?_, ?_, ?_, ?_⟩
  all_goals (simp only [hostOps1_1]; after_results_simp)
  all_goals (simp only [h17, h13, h3]; (try unfold whereOf); try rfl)

/-- The inverse square root, and the scalar 0 for the second `where`. -/
theorem stretch_rsqrt (x : FVec Ideal S50000 .f32) (h18 : W (Proc.devRef .tc main_v18) = x) :
    StableHlo.after (hostOps1_2 (F := Ideal)) W (Proc.devRef .tc main_v19) = Host.rsqrt (F := Ideal) x
    ∧ StableHlo.after (hostOps1_2 (F := Ideal)) W (Proc.devRef .tc main_cst_4) = (constant (F := Ideal) S_ .f32 0x00000000#32)
    ∧ StableHlo.after (hostOps1_2 (F := Ideal)) W (Proc.devRef .tc main_v15) = W (Proc.devRef .tc main_v15)
    ∧ StableHlo.after (hostOps1_2 (F := Ideal)) W (Proc.devRef .tc main_v3) = W (Proc.devRef .tc main_v3)
    ∧ StableHlo.after (hostOps1_2 (F := Ideal)) W (Proc.devRef .tc main_v6) = W (Proc.devRef .tc main_v6)
    ∧ StableHlo.after (hostOps1_2 (F := Ideal)) W (Proc.devRef .tc main_v9) = W (Proc.devRef .tc main_v9)
    ∧ StableHlo.after (hostOps1_2 (F := Ideal)) W (Proc.devRef .tc main_arg1) = W (Proc.devRef .tc main_arg1)
    ∧ StableHlo.after (hostOps1_2 (F := Ideal)) W (Proc.devRef .tc main_arg3) = W (Proc.devRef .tc main_arg3) := by
  refine ⟨?_, ?_, ?_, ?_, ?_, ?_, ?_, ?_⟩
  all_goals (simp only [hostOps1_2]; after_results_simp)
  all_goals (simp only [h18]; try rfl)

/-- The second `where`: the inverse square root where the degree is positive, 0 elsewhere. -/
theorem stretch_where2 (cnd : IVec S50000 1) (r : FVec Ideal S50000 .f32) (zero : FVec Ideal S_ .f32)
    (h15 : W (Proc.devRef .tc main_v15) = cnd) (h19 : W (Proc.devRef .tc main_v19) = r) (h4 : W (Proc.devRef .tc main_cst_4) = zero) :
    StableHlo.after (hostOps1_3 (F := Ideal)) W (Proc.devRef .tc main_v20) = whereOf cnd r zero
    ∧ StableHlo.after (hostOps1_3 (F := Ideal)) W (Proc.devRef .tc main_v3) = W (Proc.devRef .tc main_v3)
    ∧ StableHlo.after (hostOps1_3 (F := Ideal)) W (Proc.devRef .tc main_v6) = W (Proc.devRef .tc main_v6)
    ∧ StableHlo.after (hostOps1_3 (F := Ideal)) W (Proc.devRef .tc main_v9) = W (Proc.devRef .tc main_v9)
    ∧ StableHlo.after (hostOps1_3 (F := Ideal)) W (Proc.devRef .tc main_arg1) = W (Proc.devRef .tc main_arg1)
    ∧ StableHlo.after (hostOps1_3 (F := Ideal)) W (Proc.devRef .tc main_arg3) = W (Proc.devRef .tc main_arg3) := by
  refine ⟨?_, ?_, ?_, ?_, ?_, ?_⟩
  all_goals (simp only [hostOps1_3]; after_results_simp)
  all_goals (simp only [h15, h19, h4]; (try unfold whereOf); try rfl)

set_option maxHeartbeats 4000000 in
/-- The weights, the messages, their sum at the targets, and the bias. -/
theorem stretch_hidden (xw : FVec Ideal S50000x64 .f32) (src dst : IVec S850000 32) (dinv : FVec Ideal S50000 .f32) (b : FVec Ideal S64 .f32)
    (h9 : W (Proc.devRef .tc main_v9) = xw) (h3 : W (Proc.devRef .tc main_v3) = src) (h6 : W (Proc.devRef .tc main_v6) = dst)
    (h20 : W (Proc.devRef .tc main_v20) = dinv) (hb : W (Proc.devRef .tc main_arg3) = b) :
    StableHlo.after (hostOps1_4 (F := Ideal)) W (Proc.devRef .tc main_v51) = hiddenOf xw src dst dinv b
    ∧ StableHlo.after (hostOps1_4 (F := Ideal)) W (Proc.devRef .tc main_arg1) = W (Proc.devRef .tc main_arg1) := by
  refine ⟨?_, ?_⟩
  all_goals (simp only [hostOps1_4]; after_results_simp)
  all_goals (simp only [h9, h3, h6, h20, hb]; (try unfold hiddenOf); (try unfold wrapLooped); try rfl)

/-- The maximum with zero. -/
theorem stretch_relu (v : FVec Ideal S50000x64 .f32) (h51 : W (Proc.devRef .tc main_v51) = v) :
    StableHlo.after (hostOps1_5 (F := Ideal)) W (Proc.devRef .tc main_v52) = reluOf v
    ∧ StableHlo.after (hostOps1_5 (F := Ideal)) W (Proc.devRef .tc main_arg1) = W (Proc.devRef .tc main_arg1) := by
  refine ⟨?_, ?_⟩
  all_goals (simp only [hostOps1_5]; after_results_simp)
  all_goals (simp only [h51]; (try unfold reluOf); try rfl)

set_option maxHeartbeats 4000000 in
/-- The decoder along the given edges. -/
theorem stretch_score (h : FVec Ideal S50000x64 .f32) (ei : IVec S2x800000 32)
    (h52 : W (Proc.devRef .tc main_v52) = h) (hei : W (Proc.devRef .tc main_arg1) = ei) :
    StableHlo.after (hostOps1_6 (F := Ideal)) W (Proc.devRef .tc main_v80) = scoreOf h ei := by
  simp only [hostOps1_6]
  after_results_simp
  simp only [h52, hei]
  (try unfold scoreOf); (try unfold wrapGiven); (try unfold firstEnds); (try unfold secondEnds)
  try rfl

end Stretches

/-! ## The later operations compute `decode` -/

/-- The later operations folded over ANY buffer contents `W`: what they leave in the result buffer is `decode` of
    what `W` holds in the product array, given that the two index lists are the edge list's sources and targets. -/
theorem later_over (W : Valuation τ sig (Elt Ideal)) (xw : FVec Ideal S50000x64 .f32) (ei : IVec S2x800000 32) (b : FVec Ideal S64 .f32)
    (hxw : W (Proc.devRef .tc main_v9) = xw)
    (hsrc : W (Proc.devRef .tc main_v3) = sources ei)
    (hdst : W (Proc.devRef .tc main_v6) = targets ei)
    (hei : W (Proc.devRef .tc main_arg1) = ei)
    (hb : W (Proc.devRef .tc main_arg3) = b) :
    StableHlo.after (List.flatten (later (F := Ideal))) W (Proc.devRef .tc main_v80) = decode xw ei b := by
  have hsplit : List.flatten (later (F := Ideal))
      = hostOps1 ++ (hostOps1_1 ++ (hostOps1_2 ++ (hostOps1_3 ++ (hostOps1_4 ++ (hostOps1_5 ++ hostOps1_6))))) := by
    simp only [later, List.flatten_cons, List.flatten_nil, List.append_nil]
  rw [hsplit, StableHlo.after_append, StableHlo.after_append, StableHlo.after_append, StableHlo.after_append,
    StableHlo.after_append, StableHlo.after_append]
  -- the degree count
  obtain ⟨a13, a15, a17, ac3, p3, p6, p9, pe, pb⟩ := stretch_degree W (targets ei) hdst
  rw [hsrc] at p3; rw [hdst] at p6; rw [hxw] at p9; rw [hei] at pe; rw [hb] at pb
  generalize StableHlo.after (hostOps1 (F := Ideal)) W = W1 at *
  -- the first where
  obtain ⟨a18, q15, q3, q6, q9, qe, qb⟩ := stretch_where1 W1 _ _ _ a17 a13 ac3
  rw [a15] at q15; rw [p3] at q3; rw [p6] at q6; rw [p9] at q9; rw [pe] at qe; rw [pb] at qb
  generalize StableHlo.after (hostOps1_1 (F := Ideal)) W1 = W2 at *
  -- the inverse square root
  obtain ⟨a19, ac4, r15, r3, r6, r9, re, rb⟩ := stretch_rsqrt W2 _ a18
  rw [q15] at r15; rw [q3] at r3; rw [q6] at r6; rw [q9] at r9; rw [qe] at re; rw [qb] at rb
  generalize StableHlo.after (hostOps1_2 (F := Ideal)) W2 = W3 at *
  -- the second where
  obtain ⟨a20, s3, s6, s9, se, sb⟩ := stretch_where2 W3 _ _ _ r15 a19 ac4
  rw [r3] at s3; rw [r6] at s6; rw [r9] at s9; rw [re] at se; rw [rb] at sb
  generalize StableHlo.after (hostOps1_3 (F := Ideal)) W3 = W4 at *
  -- the aggregation
  obtain ⟨a51, te⟩ := stretch_hidden W4 _ _ _ _ _ s9 s3 s6 a20 sb
  rw [se] at te
  generalize StableHlo.after (hostOps1_4 (F := Ideal)) W4 = W5 at *
  -- the maximum with zero
  obtain ⟨a52, ue⟩ := stretch_relu W5 _ a51
  rw [te] at ue
  generalize StableHlo.after (hostOps1_5 (F := Ideal)) W5 = W6 at *
  -- the decoder
  rw [stretch_score W6 _ _ a52 ue]
  exact decode_by_stages xw ei b

variable (m : (ℓ : Loc nD τ sig) → Buf (Elt Ideal) ℓ)

/-- The first index list as the region finds it: the edges' first ends with the node numbers appended. -/
theorem entry_sources (c : Dev nD) :
    entry m c main_v3 = sources (m ((c : Thread nD τ).loc main_arg1)) := by
  show StableHlo.after hostOps0 (fun b => m (c, b)) (Proc.devRef .tc main_v3) = _
  after_results
  unfold sources firstEnds everyNode
  rfl

/-- The second index list as the region finds it: the edges' second ends with the node numbers appended. -/
theorem entry_targets (c : Dev nD) :
    entry m c main_v6 = targets (m ((c : Thread nD τ).loc main_arg1)) := by
  show StableHlo.after hostOps0 (fun b => m (c, b)) (Proc.devRef .tc main_v6) = _
  after_results
  unfold targets secondEnds everyNode
  rfl

/-- The kernel's result: the epilogue of `x · W`, the edge list and the bias. -/
theorem result_is_decode (hsum : BlockSum) (c : Dev nD) :
    Pipeline.afterTail₀ cfgs (dats m) 0 (entry0 m) later c main_v80
      = Cert.Epilogue.decode (productOf (m ((c : Thread nD τ).loc main_arg0)) (m ((c : Thread nD τ).loc main_arg2)))
          (m ((c : Thread nD τ).loc main_arg1)) (m ((c : Thread nD τ).loc main_arg3)) := by
  unfold Pipeline.afterTail₀
  refine (later_over _ _ _ _ ?_ ?_ ?_ ?_ ?_).trans (decode_eq _ _ _)
  · exact (Pipeline.withArrays_arr spec0 launch0.win.arr_inj c _ _ 2).trans (final_product m hsum c)
  · rw [Pipeline.withArrays_of_ne _ c (entry0 m c) _ main_v3 (by exact (by decide : ∀ w, Pipeline.arrRef spec0 w ≠ main_v3))]
    exact entry_sources m c
  · rw [Pipeline.withArrays_of_ne _ c (entry0 m c) _ main_v6 (by exact (by decide : ∀ w, Pipeline.arrRef spec0 w ≠ main_v6))]
    exact entry_targets m c
  · rw [Pipeline.withArrays_of_ne _ c (entry0 m c) _ main_arg1 (by exact (by decide : ∀ w, Pipeline.arrRef spec0 w ≠ main_arg1))]
    exact entry_arg1 m c
  · rw [Pipeline.withArrays_of_ne _ c (entry0 m c) _ main_arg3 (by exact (by decide : ∀ w, Pipeline.arrRef spec0 w ≠ main_arg3))]
    exact entry_arg3 m c

end Cert.KernelIdeal.Tail

end
-- ==== Proof.ProductAtIndex.lean ====
/-
  A matrix product read at one entry is the sum, over the 32 contracted positions, of the products of the two factors'
  entries:  (x · w)(r, q) = Σ_{k < 32} x(r, k) · w(k, q).
  Stated twice: for the whole 50000 × 32 by 32 × 64 product, and for one 5000 × 32 by 32 × 64 row block of it.

  Both operations carry their sum over an index set described by dimension numbers (which axes are contracted, which are
  kept). Here one axis is contracted on each side, so that index set is in bijection with {0, …, 31}; re-indexing the sum
  along the bijection and reading off the two operands' coordinates (the kept coordinate comes from the output index,
  the contracted one from the summation variable) gives the textbook formula.
-/
import proofs.«126020_j26104811225843_2_alg».proof.ReferenceIdeal
import proofs.«126020_j26104811225843_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.ProductAtIndex

open Idealize.ShloMosaic Idealize.ShloMosaic.ValueIdx

/-- The whole product at entry (r, q): Σ_{k < 32} x(r, k) · w(k, q). The left operand's index at output (r, q) and
    contraction position k is (r, k), the right operand's is (k, q). -/
theorem reference_dot_apply [Cert.ReferenceIdeal.Facts₀]
    (x : FVec Ideal Cert.ReferenceIdeal.S50000x32 .f32) (w : FVec Ideal Cert.ReferenceIdeal.S32x64 .f32)
    (r : Fin 50000) (q : Fin 64) :
    Host.dotGeneral (F := Ideal) Cert.ReferenceIdeal.dot_S50000x32_S32x64_S50000x64_1_0_0_1_n_n none x w (ix2 r q)
      = ∑ k : Fin 32, x (ix2 r k) * w (ix2 k q) := by
  simp only [Host.dotGeneral]
  rw [Ideal.dotGeneral_apply]
  -- the contraction's index set is {0, …, 31}: sum over that instead
  rw [← Equiv.sum_comp (contrEquiv1 Cert.ReferenceIdeal.dot_S50000x32_S32x64_S50000x64_1_0_0_1_n_n 32 rfl rfl).symm]
  refine Finset.sum_congr rfl fun k _ => ?_
  -- the left operand is read at (r, k)
  have hl : Cert.ReferenceIdeal.dot_S50000x32_S32x64_S50000x64_1_0_0_1_n_n.lhsIdx (ix2 r q)
      ((contrEquiv1 Cert.ReferenceIdeal.dot_S50000x32_S32x64_S50000x64_1_0_0_1_n_n 32 rfl rfl).symm k) = ix2 r k := by
    funext a
    match a with
    | ⟨0, _⟩ => exact Fin.ext rfl
    | ⟨1, _⟩ =>
      exact Fin.ext ((DotDims.lhsIdx_val_of_single _ (cl := (1 : Fin 2)) rfl _ _).trans
        (contrEquiv1_symm_val Cert.ReferenceIdeal.dot_S50000x32_S32x64_S50000x64_1_0_0_1_n_n 32 rfl rfl k))
  -- the right operand is read at (k, q)
  have hr : Cert.ReferenceIdeal.dot_S50000x32_S32x64_S50000x64_1_0_0_1_n_n.rhsIdx (ix2 r q)
      ((contrEquiv1 Cert.ReferenceIdeal.dot_S50000x32_S32x64_S50000x64_1_0_0_1_n_n 32 rfl rfl).symm k) = ix2 k q := by
    funext a
    match a with
    | ⟨0, _⟩ =>
      exact Fin.ext ((DotDims.rhsIdx_val_of_single _ (cr := (0 : Fin 2)) rfl _ _).trans
        (contrEquiv1_symm_val Cert.ReferenceIdeal.dot_S50000x32_S32x64_S50000x64_1_0_0_1_n_n 32 rfl rfl k))
    | ⟨1, _⟩ => exact Fin.ext rfl
  rw [hl, hr]

/-- One row block's product at entry (p, q): Σ_{k < 32} x0(p, k) · w0(k, q). The block's two operands are first recast
    to their own shapes (the identity) and the product is accumulated into zeros, so nothing is added to the sum. -/
theorem block_product_apply (x0 : Vec Ideal Cert.KernelIdeal.S5000x32 .bf16) (w0 : Vec Ideal Cert.KernelIdeal.S32x64 .bf16)
    (p : Fin 5000) (q : Fin 64) :
    Cert.KernelIdeal.Gen.k0_pay1 (F := Ideal) x0 w0 (ix2 p q) = ∑ k : Fin 32, x0 (ix2 p k) * w0 (ix2 k q) := by
  unfold Cert.KernelIdeal.Gen.k0_pay1
  -- a cast to the same shape is the identity; a product accumulated into zeros is the bare sum
  rw [shapeCast_self, shapeCast_self]
  simp only [matmul]
  rw [Ideal.matmul_constant_zero_apply]
  -- the contraction's index set is {0, …, 31}: sum over that instead
  rw [← Equiv.sum_comp (contrEquiv1 Cert.KernelIdeal.dot_S5000x32_S32x64_S5000x64_1_0_0_1_n_n 32 rfl rfl).symm]
  refine Finset.sum_congr rfl fun k _ => ?_
  -- the left operand is read at (p, k)
  have hl : Cert.KernelIdeal.dot_S5000x32_S32x64_S5000x64_1_0_0_1_n_n.lhsIdx (ix2 p q)
      ((contrEquiv1 Cert.KernelIdeal.dot_S5000x32_S32x64_S5000x64_1_0_0_1_n_n 32 rfl rfl).symm k) = ix2 p k := by
    funext a
    match a with
    | ⟨0, _⟩ => exact Fin.ext rfl
    | ⟨1, _⟩ =>
      exact Fin.ext ((DotDims.lhsIdx_val_of_single _ (cl := (1 : Fin 2)) rfl _ _).trans
        (contrEquiv1_symm_val Cert.KernelIdeal.dot_S5000x32_S32x64_S5000x64_1_0_0_1_n_n 32 rfl rfl k))
  -- the right operand is read at (k, q)
  have hr : Cert.KernelIdeal.dot_S5000x32_S32x64_S5000x64_1_0_0_1_n_n.rhsIdx (ix2 p q)
      ((contrEquiv1 Cert.KernelIdeal.dot_S5000x32_S32x64_S5000x64_1_0_0_1_n_n 32 rfl rfl).symm k) = ix2 k q := by
    funext a
    match a with
    | ⟨0, _⟩ =>
      exact Fin.ext ((DotDims.rhsIdx_val_of_single _ (cr := (0 : Fin 2)) rfl _ _).trans
        (contrEquiv1_symm_val Cert.KernelIdeal.dot_S5000x32_S32x64_S5000x64_1_0_0_1_n_n 32 rfl rfl k))
    | ⟨1, _⟩ => exact Fin.ext rfl
  rw [hl, hr]

end Cert.ProductAtIndex

end
-- ==== Proof.lean ====
/-
  A graph convolution followed by an inner-product edge decoder, computed two ways, is one function on the extended reals.

  Both programs take node features `x` (50000 × 32), an edge list `ei` (2 × 800000 node numbers), weights `W` (32 × 64)
  and a bias `b` (64). Both form `xw = x · W` and then run the same host computation on `xw`, `ei`, `b`
  (`Cert.Epilogue.decode`): self-loops are appended to the edge list, every edge gets the weight
  `deg(s)^(-1/2) · deg(t)^(-1/2)`, the weighted rows `xw[s]` are summed at the targets, the bias is added and the
  maximum with 0 taken, and each given edge is scored by the sigmoid of the inner product of its two ends' rows, plus 1e-15.

  They differ only in how `x · W` is formed. The reference takes one dot product of the two arrays. The kernel rounds
  both to bf16 — the identity on the extended reals — and multiplies block by block: a grid of ten points, point `t`
  multiplying rows `5000 t … 5000 t + 4999` of `x` by the whole of `W` into rows `5000 t …` of the result. Entry
  `(r, q)` of either is `∑ k < 32, x (r, k) · W (k, q)`, so the two product arrays are equal, and so are the results.
  No law of the extended reals beyond that re-indexing is used, and the precondition (finite inputs) is not needed.

  The frames: each program's @main terminates on every weakly fair schedule, faults nowhere and leaves its four
  argument arrays as launched — for the two kernel programs by the pipeline's launch theorem over the body's triple
  (one covering store of the block product), the host operations around the region writing only buffers of their own;
  for the reference by its run read back operation by operation. The idealized kernel is the printed kernel's own text
  read at the ideal instance: no rewrite was applied, and `preserves` has nothing to state.
-/
import proofs.«126020_j26104811225843_2_alg».proof.Defs
import proofs.«126020_j26104811225843_2_alg».proof.Proof.Gen.Kernel
import proofs.«126020_j26104811225843_2_alg».proof.Proof.Gen.KernelIdeal
import proofs.«126020_j26104811225843_2_alg».proof.Proof.Gen.ReferenceIdeal
import proofs.«126020_j26104811225843_2_alg».proof.Proof.Gen.Pre_finite_inputs
import proofs.«126020_j26104811225843_2_alg».proof.Proof.BitsBody
import proofs.«126020_j26104811225843_2_alg».proof.Proof.KernelTail
import proofs.«126020_j26104811225843_2_alg».proof.Proof.ProductAtIndex
import Idealize.ShloMosaic.Adequacy
import Idealize.ShloMosaic.Init

noncomputable section

open scoped BigOperators

namespace Cert.Proof

open Idealize.ShloMosaic Idealize.ShloMosaic.TcCoe Idealize.ShloMosaic.ValueIdx Idealize.SL.Sem

/-! ## The two products are one function -/

/-- A block's payload at an entry is the sum over the 32 contracted positions: the matrix unit's product into a
    zero accumulator, read at the ideal instance. -/
theorem block_sum : Cert.KernelIdeal.ProductArray.BlockSum :=
  fun x0 w0 p q => Cert.ProductAtIndex.block_product_apply x0 w0 p q

/-- The reference's dot product of the two arrays is `x · W` entry by entry. -/
theorem reference_product (x : FVec Ideal Cert.ReferenceIdeal.S50000x32 .f32) (w : FVec Ideal Cert.ReferenceIdeal.S32x64 .f32) :
    Host.dotGeneral (F := Ideal) (φ₁ := .f32) (φ₂ := .f32) Cert.ReferenceIdeal.dot_S50000x32_S32x64_S50000x64_1_0_0_1_n_n none x w
      = Cert.KernelIdeal.ProductArray.productOf x w := by
  funext i
  obtain ⟨r, q, rfl⟩ : ∃ (r : Fin 50000) (q : Fin 64), i = ix2 r q := ⟨i 0, i 1, eq_ix2 i⟩
  rw [Cert.ProductAtIndex.reference_dot_apply]
  rfl

/-! ## The claims -/

theorem frame_kernel : Cert.frame_Kernel := fun m ρ _ => Cert.Kernel.Body.frame (F := Bits) m ρ

theorem frame_kernel_ideal : Cert.frame_KernelIdeal := fun m ρ _ => Cert.KernelIdeal.Body.frame (F := Ideal) m ρ

/-- The reference's frame is its run with the result dropped. -/
theorem frame_reference : Cert.frame_ReferenceIdeal := fun m ρ _ =>
  (θ_run Cert.ReferenceIdeal.defs _ _).mono (fun _ h c => (h c).2.2) (Cert.ReferenceIdeal.RunP.run (F := Ideal) m ρ)

/-- The ideal pass rewrote no operation. -/
theorem preserves : Cert.preserves_Kernel_KernelIdeal := trivial

/-- From memories agreeing on the arguments both programs end with `decode (x · W) ei b` in the result and the edge
    list returned unchanged: the kernel's product array is `x · W` block by block, the reference's dot product is
    `x · W` entry by entry, and the rest of either program is `decode`. -/
theorem algebraic : Cert.algebraic_KernelIdeal_ReferenceIdeal := by
  intro m ρ m' ρ' _ hagree
  refine ⟨fun c => Cert.Epilogue.decode
      (Cert.KernelIdeal.ProductArray.productOf (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    fun c => m ((c.tc : Thread Cert.KernelIdeal.nD Cert.KernelIdeal.τ).loc Cert.KernelIdeal.main_arg1), ?_, ?_⟩
  · exact (θ_run Cert.KernelIdeal.defs _ _).mono
      (fun _ h c => ⟨(h c).1.trans (Cert.KernelIdeal.Tail.result_is_decode m block_sum c),
        (h c).2.2.1, (h c).2.1, (h c).2.2.1, (h c).2.2.2.1, (h c).2.2.2.2⟩)
      (Cert.KernelIdeal.Body.run_result (F := Ideal) m ρ)
  · refine (θ_run Cert.ReferenceIdeal.defs _ _).mono
      (fun _ h c => ⟨(h c).1.trans ?_, (h c).2.1.trans (hagree c).2.1, (h c).2.2.1, (h c).2.2.2.1, (h c).2.2.2.2.1, (h c).2.2.2.2.2⟩)
      (Cert.ReferenceIdeal.RunP.run (F := Ideal) m' ρ')
    rw [Cert.Epilogue.reference_is_decode, (hagree c).1, (hagree c).2.1, (hagree c).2.2.1, (hagree c).2.2.2, reference_product]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
